-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x352x352 : Shape := ⟨4, ![1, 1, 352, 352]⟩
abbrev S1x1x176x176 : Shape := ⟨4, ![1, 1, 176, 176]⟩
abbrev S1x1x88x88 : Shape := ⟨4, ![1, 1, 88, 88]⟩
abbrev S1x1x44x44 : Shape := ⟨4, ![1, 1, 44, 44]⟩
abbrev S1x1x22x22 : Shape := ⟨4, ![1, 1, 22, 22]⟩
abbrev S1x1x11x11 : Shape := ⟨4, ![1, 1, 11, 11]⟩
abbrev S_ : Shape := ⟨0, ![]⟩

class Facts : Prop where
  bcast_S_S1x1x352x352 : S_.BroadcastsInDim S1x1x352x352 (![] : Fin 0 → Fin S1x1x352x352.rank)
  reducesTo_S1x1x352x352_S_d0_1_2_3 : S1x1x352x352.ReducesTo [0, 1, 2, 3] S_
  h_S_ : 0 < S_.numel
  bcast_S_S1x1x176x176 : S_.BroadcastsInDim S1x1x176x176 (![] : Fin 0 → Fin S1x1x176x176.rank)
  reducesTo_S1x1x176x176_S_d0_1_2_3 : S1x1x176x176.ReducesTo [0, 1, 2, 3] S_
  bcast_S_S1x1x88x88 : S_.BroadcastsInDim S1x1x88x88 (![] : Fin 0 → Fin S1x1x88x88.rank)
  reducesTo_S1x1x88x88_S_d0_1_2_3 : S1x1x88x88.ReducesTo [0, 1, 2, 3] S_
  bcast_S_S1x1x44x44 : S_.BroadcastsInDim S1x1x44x44 (![] : Fin 0 → Fin S1x1x44x44.rank)
  reducesTo_S1x1x44x44_S_d0_1_2_3 : S1x1x44x44.ReducesTo [0, 1, 2, 3] S_
  bcast_S_S1x1x22x22 : S_.BroadcastsInDim S1x1x22x22 (![] : Fin 0 → Fin S1x1x22x22.rank)
  reducesTo_S1x1x22x22_S_d0_1_2_3 : S1x1x22x22.ReducesTo [0, 1, 2, 3] S_
  bcast_S_S1x1x11x11 : S_.BroadcastsInDim S1x1x11x11 (![] : Fin 0 → Fin S1x1x11x11.rank)
  reducesTo_S1x1x11x11_S_d0_1_2_3 : S1x1x11x11.ReducesTo [0, 1, 2, 3] S_

variable [Facts]

def fn_part3 {F : FTy → Type} [FloatOps F] (main_arg11 : FVec F S1x1x176x176 .f32) (main_v48 : IVec S_ 1) (main_v49 : FVec F S1x1x11x11 .f32) (main_v50 : FVec F S1x1x11x11 .f32) : IVec S_ 1 :=
  let main_v51 : IVec S1x1x11x11 1 := cmpf .olt main_v49 main_v50
  let main_c_19 : IVec S_ 1 := constantI S_ 1 1#1
  let main_v52 : IVec S_ 1 := (fun x v => Host.reduce IntOp.andi x v reducesTo_S1x1x11x11_S_d0_1_2_3 h_S_) main_v51 main_c_19
  let main_v53 : IVec S_ 1 := andi main_v48 main_v52
  let main_v54 : FVec F S1x1x176x176 .f32 := Host.absf main_arg11
  let main_cst_20 : FVec F S_ .f32 := constant S_ .f32 0x7F800000#32
  let main_v55 : FVec F S1x1x176x176 .f32 := broadcastInDim S1x1x176x176 ![] bcast_S_S1x1x176x176 main_cst_20
  let main_v56 : IVec S1x1x176x176 1 := cmpf .olt main_v54 main_v55
  let main_c_21 : IVec S_ 1 := constantI S_ 1 1#1
  let main_v57 : IVec S_ 1 := (fun x v => Host.reduce IntOp.andi x v reducesTo_S1x1x176x176_S_d0_1_2_3 h_S_) main_v56 main_c_21
  let main_v58 : IVec S_ 1 := andi main_v53 main_v57
  main_v58

def fn_part2 {F : FTy → Type} [FloatOps F] (main_arg7 : FVec F S1x1x88x88 .f32) (main_arg8 : FVec F S1x1x44x44 .f32) (main_arg9 : FVec F S1x1x22x22 .f32) (main_arg10 : FVec F S1x1x11x11 .f32) (main_arg11 : FVec F S1x1x176x176 .f32) (main_v33 : IVec S_ 1) : IVec S_ 1 :=
  let main_v34 : FVec F S1x1x88x88 .f32 := Host.absf main_arg7
  let main_cst_12 : FVec F S_ .f32 := constant S_ .f32 0x7F800000#32
  let main_v35 : FVec F S1x1x88x88 .f32 := broadcastInDim S1x1x88x88 ![] bcast_S_S1x1x88x88 main_cst_12
  let main_v36 : IVec S1x1x88x88 1 := cmpf .olt main_v34 main_v35
  let main_c_13 : IVec S_ 1 := constantI S_ 1 1#1
  let main_v37 : IVec S_ 1 := (fun x v => Host.reduce IntOp.andi x v reducesTo_S1x1x88x88_S_d0_1_2_3 h_S_) main_v36 main_c_13
  let main_v38 : IVec S_ 1 := andi main_v33 main_v37
  let main_v39 : FVec F S1x1x44x44 .f32 := Host.absf main_arg8
  let main_cst_14 : FVec F S_ .f32 := constant S_ .f32 0x7F800000#32
  let main_v40 : FVec F S1x1x44x44 .f32 := broadcastInDim S1x1x44x44 ![] bcast_S_S1x1x44x44 main_cst_14
  let main_v41 : IVec S1x1x44x44 1 := cmpf .olt main_v39 main_v40
  let main_c_15 : IVec S_ 1 := constantI S_ 1 1#1
  let main_v42 : IVec S_ 1 := (fun x v => Host.reduce IntOp.andi x v reducesTo_S1x1x44x44_S_d0_1_2_3 h_S_) main_v41 main_c_15
  let main_v43 : IVec S_ 1 := andi main_v38 main_v42
  let main_v44 : FVec F S1x1x22x22 .f32 := Host.absf main_arg9
  let main_cst_16 : FVec F S_ .f32 := constant S_ .f32 0x7F800000#32
  let main_v45 : FVec F S1x1x22x22 .f32 := broadcastInDim S1x1x22x22 ![] bcast_S_S1x1x22x22 main_cst_16
  let main_v46 : IVec S1x1x22x22 1 := cmpf .olt main_v44 main_v45
  let main_c_17 : IVec S_ 1 := constantI S_ 1 1#1
  let main_v47 : IVec S_ 1 := (fun x v => Host.reduce IntOp.andi x v reducesTo_S1x1x22x22_S_d0_1_2_3 h_S_) main_v46 main_c_17
  let main_v48 : IVec S_ 1 := andi main_v43 main_v47
  let main_v49 : FVec F S1x1x11x11 .f32 := Host.absf main_arg10
  let main_cst_18 : FVec F S_ .f32 := constant S_ .f32 0x7F800000#32
  let main_v50 : FVec F S1x1x11x11 .f32 := broadcastInDim S1x1x11x11 ![] bcast_S_S1x1x11x11 main_cst_18
  fn_part3 (F := F) main_arg11 main_v48 main_v49 main_v50

def fn_part1 {F : FTy → Type} [FloatOps F] (main_arg4 : FVec F S1x1x22x22 .f32) (main_arg5 : FVec F S1x1x11x11 .f32) (main_arg6 : FVec F S1x1x176x176 .f32) (main_arg7 : FVec F S1x1x88x88 .f32) (main_arg8 : FVec F S1x1x44x44 .f32) (main_arg9 : FVec F S1x1x22x22 .f32) (main_arg10 : FVec F S1x1x11x11 .f32) (main_arg11 : FVec F S1x1x176x176 .f32) (main_v13 : IVec S_ 1) (main_v16 : IVec S1x1x44x44 1) : IVec S_ 1 :=
  let main_c_5 : IVec S_ 1 := constantI S_ 1 1#1
  let main_v17 : IVec S_ 1 := (fun x v => Host.reduce IntOp.andi x v reducesTo_S1x1x44x44_S_d0_1_2_3 h_S_) main_v16 main_c_5
  let main_v18 : IVec S_ 1 := andi main_v13 main_v17
  let main_v19 : FVec F S1x1x22x22 .f32 := Host.absf main_arg4
  let main_cst_6 : FVec F S_ .f32 := constant S_ .f32 0x7F800000#32
  let main_v20 : FVec F S1x1x22x22 .f32 := broadcastInDim S1x1x22x22 ![] bcast_S_S1x1x22x22 main_cst_6
  let main_v21 : IVec S1x1x22x22 1 := cmpf .olt main_v19 main_v20
  let main_c_7 : IVec S_ 1 := constantI S_ 1 1#1
  let main_v22 : IVec S_ 1 := (fun x v => Host.reduce IntOp.andi x v reducesTo_S1x1x22x22_S_d0_1_2_3 h_S_) main_v21 main_c_7
  let main_v23 : IVec S_ 1 := andi main_v18 main_v22
  let main_v24 : FVec F S1x1x11x11 .f32 := Host.absf main_arg5
  let main_cst_8 : FVec F S_ .f32 := constant S_ .f32 0x7F800000#32
  let main_v25 : FVec F S1x1x11x11 .f32 := broadcastInDim S1x1x11x11 ![] bcast_S_S1x1x11x11 main_cst_8
  let main_v26 : IVec S1x1x11x11 1 := cmpf .olt main_v24 main_v25
  let main_c_9 : IVec S_ 1 := constantI S_ 1 1#1
  let main_v27 : IVec S_ 1 := (fun x v => Host.reduce IntOp.andi x v reducesTo_S1x1x11x11_S_d0_1_2_3 h_S_) main_v26 main_c_9
  let main_v28 : IVec S_ 1 := andi main_v23 main_v27
  let main_v29 : FVec F S1x1x176x176 .f32 := Host.absf main_arg6
  let main_cst_10 : FVec F S_ .f32 := constant S_ .f32 0x7F800000#32
  let main_v30 : FVec F S1x1x176x176 .f32 := broadcastInDim S1x1x176x176 ![] bcast_S_S1x1x176x176 main_cst_10
  let main_v31 : IVec S1x1x176x176 1 := cmpf .olt main_v29 main_v30
  let main_c_11 : IVec S_ 1 := constantI S_ 1 1#1
  let main_v32 : IVec S_ 1 := (fun x v => Host.reduce IntOp.andi x v reducesTo_S1x1x176x176_S_d0_1_2_3 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1x1x352x352 .f32) (main_arg1 : FVec F S1x1x176x176 .f32) (main_arg2 : FVec F S1x1x88x88 .f32) (main_arg3 : FVec F S1x1x44x44 .f32) (main_arg4 : FVec F S1x1x22x22 .f32) (main_arg5 : FVec F S1x1x11x11 .f32) (main_arg6 : FVec F S1x1x176x176 .f32) (main_arg7 : FVec F S1x1x88x88 .f32) (main_arg8 : FVec F S1x1x44x44 .f32) (main_arg9 : FVec F S1x1x22x22 .f32) (main_arg10 : FVec F S1x1x11x11 .f32) (main_arg11 : FVec F S1x1x176x176 .f32) : IVec S_ 1 :=
  let main_v0 : FVec F S1x1x352x352 .f32 := Host.absf main_arg0
  let main_cst : FVec F S_ .f32 := constant S_ .f32 0x7F800000#32
  let main_v1 : FVec F S1x1x352x352 .f32 := broadcastInDim S1x1x352x352 ![] bcast_S_S1x1x352x352 main_cst
  let main_v2 : IVec S1x1x352x352 1 := cmpf .olt main_v0 main_v1
  let main_c : IVec S_ 1 := constantI S_ 1 1#1
  let main_v3 : IVec S_ 1 := (fun x v => Host.reduce IntOp.andi x v reducesTo_S1x1x352x352_S_d0_1_2_3 h_S_) main_v2 main_c
  let main_v4 : FVec F S1x1x176x176 .f32 := Host.absf main_arg1
  let main_cst_0 : FVec F S_ .f32 := constant S_ .f32 0x7F800000#32
  let main_v5 : FVec F S1x1x176x176 .f32 := broadcastInDim S1x1x176x176 ![] bcast_S_S1x1x176x176 main_cst_0
  let main_v6 : IVec S1x1x176x176 1 := cmpf .olt main_v4 main_v5
  let main_c_1 : IVec S_ 1 := constantI S_ 1 1#1
  let main_v7 : IVec S_ 1 := (fun x v => Host.reduce IntOp.andi x v reducesTo_S1x1x176x176_S_d0_1_2_3 h_S_) main_v6 main_c_1
  let main_v8 : IVec S_ 1 := andi main_v3 main_v7
  let main_v9 : FVec F S1x1x88x88 .f32 := Host.absf main_arg2
  let main_cst_2 : FVec F S_ .f32 := constant S_ .f32 0x7F800000#32
  let main_v10 : FVec F S1x1x88x88 .f32 := broadcastInDim S1x1x88x88 ![] bcast_S_S1x1x88x88 main_cst_2
  let main_v11 : IVec S1x1x88x88 1 := cmpf .olt main_v9 main_v10
  let main_c_3 : IVec S_ 1 := constantI S_ 1 1#1
  let main_v12 : IVec S_ 1 := (fun x v => Host.reduce IntOp.andi x v reducesTo_S1x1x88x88_S_d0_1_2_3 h_S_) main_v11 main_c_3
  let main_v13 : IVec S_ 1 := andi main_v8 main_v12
  let main_v14 : FVec F S1x1x44x44 .f32 := Host.absf main_arg3
  let main_cst_4 : FVec F S_ .f32 := constant S_ .f32 0x7F800000#32
  let main_v15 : FVec F S1x1x44x44 .f32 := broadcastInDim S1x1x44x44 ![] bcast_S_S1x1x44x44 main_cst_4
  let main_v16 : IVec S1x1x44x44 1 := cmpf .olt main_v14 main_v15
  fn_part1 (F := F) main_arg4 main_arg5 main_arg6 main_arg7 main_arg8 main_arg9 main_arg10 main_arg11 main_v13 main_v16
-- ==== Kernel.lean ====
abbrev S1x1x352x352 : Shape := ⟨4, ![1, 1, 352, 352]⟩
abbrev S1x1x176x176 : Shape := ⟨4, ![1, 1, 176, 176]⟩
abbrev S1x1x88x88 : Shape := ⟨4, ![1, 1, 88, 88]⟩
abbrev S1x1x44x44 : Shape := ⟨4, ![1, 1, 44, 44]⟩
abbrev S1x1x22x22 : Shape := ⟨4, ![1, 1, 22, 22]⟩
abbrev S1x1x11x11 : Shape := ⟨4, ![1, 1, 11, 11]⟩
abbrev S1x12x352x352 : Shape := ⟨4, ![1, 12, 352, 352]⟩
abbrev S352x352 : Shape := ⟨2, ![352, 352]⟩
abbrev S176x176 : Shape := ⟨2, ![176, 176]⟩
abbrev S352x176 : Shape := ⟨2, ![352, 176]⟩
abbrev S88x88 : Shape := ⟨2, ![88, 88]⟩
abbrev S352x88 : Shape := ⟨2, ![352, 88]⟩
abbrev S44x44 : Shape := ⟨2, ![44, 44]⟩
abbrev S352x44 : Shape := ⟨2, ![352, 44]⟩
abbrev S22x22 : Shape := ⟨2, ![22, 22]⟩
abbrev S352x22 : Shape := ⟨2, ![352, 22]⟩
abbrev S11x11 : Shape := ⟨2, ![11, 11]⟩
abbrev S352x11 : Shape := ⟨2, ![352, 11]⟩

abbrev nBuf : Space → Nat
  | .hbm => 13
  | .vmem => 13
  | .smem => 0
  | _ => 0

abbrev bufTy : (tb : Table) → Fin (tcTables nBuf tb) → BufTy
  | .hbm, ⟨0, _⟩ => ⟨S1x1x352x352, .f32⟩
  | .hbm, ⟨1, _⟩ => ⟨S1x1x176x176, .f32⟩
  | .hbm, ⟨2, _⟩ => ⟨S1x1x88x88, .f32⟩
  | .hbm, ⟨3, _⟩ => ⟨S1x1x44x44, .f32⟩
  | .hbm, ⟨4, _⟩ => ⟨S1x1x22x22, .f32⟩
  | .hbm, ⟨5, _⟩ => ⟨S1x1x11x11, .f32⟩
  | .hbm, ⟨6, _⟩ => ⟨S1x1x176x176, .f32⟩
  | .hbm, ⟨7, _⟩ => ⟨S1x1x88x88, .f32⟩
  | .hbm, ⟨8, _⟩ => ⟨S1x1x44x44, .f32⟩
  | .hbm, ⟨9, _⟩ => ⟨S1x1x22x22, .f32⟩
  | .hbm, ⟨10, _⟩ => ⟨S1x1x11x11, .f32⟩
  | .hbm, ⟨11, _⟩ => ⟨S1x1x176x176, .f32⟩
  | .hbm, ⟨12, _⟩ => ⟨S1x12x352x352, .f32⟩
  | .local _ .vmem, ⟨0, _⟩ => ⟨S1x1x352x352, .f32⟩
  | .local _ .vmem, ⟨1, _⟩ => ⟨S1x1x176x176, .f32⟩
  | .local _ .vmem, ⟨2, _⟩ => ⟨S1x1x88x88, .f32⟩
  | .local _ .vmem, ⟨3, _⟩ => ⟨S1x1x44x44, .f32⟩
  | .local _ .vmem, ⟨4, _⟩ => ⟨S1x1x22x22, .f32⟩
  | .local _ .vmem, ⟨5, _⟩ => ⟨S1x1x11x11, .f32⟩
  | .local _ .vmem, ⟨6, _⟩ => ⟨S1x1x176x176, .f32⟩
  | .local _ .vmem, ⟨7, _⟩ => ⟨S1x1x88x88, .f32⟩
  | .local _ .vmem, ⟨8, _⟩ => ⟨S1x1x44x44, .f32⟩
  | .local _ .vmem, ⟨9, _⟩ => ⟨S1x1x22x22, .f32⟩
  | .local _ .vmem, ⟨10, _⟩ => ⟨S1x1x11x11, .f32⟩
  | .local _ .vmem, ⟨11, _⟩ => ⟨S1x1x176x176, .f32⟩
  | .local _ .vmem, ⟨12, _⟩ => ⟨S1x12x352x352, .f32⟩
  | _, _ => ⟨S1x1x352x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S1x1x352x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1x176x176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x88x88 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x44x44 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x22x22 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x11x11 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x176x176 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x88x88 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x44x44 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x22x22 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x11x11 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x176x176 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x12x352x352 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

class Facts₀ : Prop where
  inb_S1x1x352x352_S1x1x352x352_0_0_0_0 : ∀ a, (![0, 0, 0, 0] : Fin 4 → Nat) a + S1x1x352x352.size a ≤ S1x1x352x352.size a
  h_S1x1x352x352 : 0 < S1x1x352x352.numel
  shapeCasts_S1x1x352x352_S352x352 : S1x1x352x352.ShapeCasts S352x352
  inb_S1x12x352x352_S1x1x352x352_0_0_0_0 : ∀ a, (![0, 0, 0, 0] : Fin 4 → Nat) a + S1x1x352x352.size a ≤ S1x12x352x352.size a
  shapeCasts_S352x352_S1x1x352x352 : S352x352.ShapeCasts S1x1x352x352
  inb_S1x1x176x176_S1x1x176x176_0_0_0_0 : ∀ a, (![0, 0, 0, 0] : Fin 4 → Nat) a + S1x1x176x176.size a ≤ S1x1x176x176.size a
  h_S1x1x176x176 : 0 < S1x1x176x176.numel
  shapeCasts_S1x1x176x176_S176x176 : S1x1x176x176.ShapeCasts S176x176
  iota_S352x176_d0_w32 : S352x176.Iotas .tc 32 [0]
  iota_S352x176_d1_w32 : S352x176.Iotas .tc 32 [1]
  natLt_1_32 : 1 < 32
  inb_S1x12x352x352_S1x1x352x352_0_1_0_0 : ∀ a, (![0, 1, 0, 0] : Fin 4 → Nat) a + S1x1x352x352.size a ≤ S1x12x352x352.size a
  inb_S1x1x88x88_S1x1x88x88_0_0_0_0 : ∀ a, (![0, 0, 0, 0] : Fin 4 → Nat) a + S1x1x88x88.size a ≤ S1x1x88x88.size a
  h_S1x1x88x88 : 0 < S1x1x88x88.numel
  shapeCasts_S1x1x88x88_S88x88 : S1x1x88x88.ShapeCasts S88x88
  iota_S352x88_d0_w32 : S352x88.Iotas .tc 32 [0]
  iota_S352x88_d1_w32 : S352x88.Iotas .tc 32 [1]
  inb_S1x12x352x352_S1x1x352x352_0_2_0_0 : ∀ a, (![0, 2, 0, 0] : Fin 4 → Nat) a + S1x1x352x352.size a ≤ S1x12x352x352.size a
  inb_S1x1x44x44_S1x1x44x44_0_0_0_0 : ∀ a, (![0, 0, 0, 0] : Fin 4 → Nat) a + S1x1x44x44.size a ≤ S1x1x44x44.size a
  h_S1x1x44x44 : 0 < S1x1x44x44.numel
  shapeCasts_S1x1x44x44_S44x44 : S1x1x44x44.ShapeCasts S44x44
  iota_S352x44_d0_w32 : S352x44.Iotas .tc 32 [0]
  iota_S352x44_d1_w32 : S352x44.Iotas .tc 32 [1]
  inb_S1x12x352x352_S1x1x352x352_0_3_0_0 : ∀ a, (![0, 3, 0, 0] : Fin 4 → Nat) a + S1x1x352x352.size a ≤ S1x12x352x352.size a
  inb_S1x1x22x22_S1x1x22x22_0_0_0_0 : ∀ a, (![0, 0, 0, 0] : Fin 4 → Nat) a + S1x1x22x22.size a ≤ S1x1x22x22.size a
  h_S1x1x22x22 : 0 < S1x1x22x22.numel
  shapeCasts_S1x1x22x22_S22x22 : S1x1x22x22.ShapeCasts S22x22
  iota_S352x22_d0_w32 : S352x22.Iotas .tc 32 [0]
  iota_S352x22_d1_w32 : S352x22.Iotas .tc 32 [1]
  inb_S1x12x352x352_S1x1x352x352_0_4_0_0 : ∀ a, (![0, 4, 0, 0] : Fin 4 → Nat) a + S1x1x352x352.size a ≤ S1x12x352x352.size a
  inb_S1x1x11x11_S1x1x11x11_0_0_0_0 : ∀ a, (![0, 0, 0, 0] : Fin 4 → Nat) a + S1x1x11x11.size a ≤ S1x1x11x11.size a
  h_S1x1x11x11 : 0 < S1x1x11x11.numel
  shapeCasts_S1x1x11x11_S11x11 : S1x1x11x11.ShapeCasts S11x11
  iota_S352x11_d0_w32 : S352x11.Iotas .tc 32 [0]
  iota_S352x11_d1_w32 : S352x11.Iotas .tc 32 [1]
  inb_S1x12x352x352_S1x1x352x352_0_5_0_0 : ∀ a, (![0, 5, 0, 0] : Fin 4 → Nat) a + S1x1x352x352.size a ≤ S1x12x352x352.size a
  inb_S1x12x352x352_S1x1x352x352_0_6_0_0 : ∀ a, (![0, 6, 0, 0] : Fin 4 → Nat) a + S1x1x352x352.size a ≤ S1x12x352x352.size a
  inb_S1x12x352x352_S1x1x352x352_0_7_0_0 : ∀ a, (![0, 7, 0, 0] : Fin 4 → Nat) a + S1x1x352x352.size a ≤ S1x12x352x352.size a
  inb_S1x12x352x352_S1x1x352x352_0_8_0_0 : ∀ a, (![0, 8, 0, 0] : Fin 4 → Nat) a + S1x1x352x352.size a ≤ S1x12x352x352.size a
  inb_S1x12x352x352_S1x1x352x352_0_9_0_0 : ∀ a, (![0, 9, 0, 0] : Fin 4 → Nat) a + S1x1x352x352.size a ≤ S1x12x352x352.size a
  inb_S1x12x352x352_S1x1x352x352_0_10_0_0 : ∀ a, (![0, 10, 0, 0] : Fin 4 → Nat) a + S1x1x352x352.size a ≤ S1x12x352x352.size a
  inb_S1x12x352x352_S1x1x352x352_0_11_0_0 : ∀ a, (![0, 11, 0, 0] : Fin 4 → Nat) a + S1x1x352x352.size a ≤ S1x12x352x352.size a
  dot_S352x176_S176x176_S352x176_1_0_0_1_n_n_wf : DotDims.WF S352x176 S176x176 S352x176 [1] [0] [0] [1] [] []
  dot_S352x176_S352x176_S352x352_1_1_0_0_n_n_wf : DotDims.WF S352x176 S352x176 S352x352 [1] [1] [0] [0] [] []
  dot_S352x88_S88x88_S352x88_1_0_0_1_n_n_wf : DotDims.WF S352x88 S88x88 S352x88 [1] [0] [0] [1] [] []
  dot_S352x88_S352x88_S352x352_1_1_0_0_n_n_wf : DotDims.WF S352x88 S352x88 S352x352 [1] [1] [0] [0] [] []
  dot_S352x44_S44x44_S352x44_1_0_0_1_n_n_wf : DotDims.WF S352x44 S44x44 S352x44 [1] [0] [0] [1] [] []
  dot_S352x44_S352x44_S352x352_1_1_0_0_n_n_wf : DotDims.WF S352x44 S352x44 S352x352 [1] [1] [0] [0] [] []
  dot_S352x22_S22x22_S352x22_1_0_0_1_n_n_wf : DotDims.WF S352x22 S22x22 S352x22 [1] [0] [0] [1] [] []
  dot_S352x22_S352x22_S352x352_1_1_0_0_n_n_wf : DotDims.WF S352x22 S352x22 S352x352 [1] [1] [0] [0] [] []
  dot_S352x11_S11x11_S352x11_1_0_0_1_n_n_wf : DotDims.WF S352x11 S11x11 S352x11 [1] [0] [0] [1] [] []
  dot_S352x11_S352x11_S352x352_1_1_0_0_n_n_wf : DotDims.WF S352x11 S352x11 S352x352 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1x352x352.size a ≤ S1x1x352x352.size a
  hwx0_0 : ∀ i : grid0.Coords, EltTy.bits .f32 = 32 ∨ (Rect.block (s := S1x1x352x352) S1x1x352x352.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x176x176.size a ≤ S1x1x176x176.size a
  hwx0_1 : ∀ i : grid0.Coords, EltTy.bits .f32 = 32 ∨ (Rect.block (s := S1x1x176x176) S1x1x176x176.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x88x88.size a ≤ S1x1x88x88.size a
  hwx0_2 : ∀ i : grid0.Coords, EltTy.bits .f32 = 32 ∨ (Rect.block (s := S1x1x88x88) S1x1x88x88.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x44x44.size a ≤ S1x1x44x44.size a
  hwx0_3 : ∀ i : grid0.Coords, EltTy.bits .f32 = 32 ∨ (Rect.block (s := S1x1x44x44) S1x1x44x44.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x22x22.size a ≤ S1x1x22x22.size a
  hwx0_4 : ∀ i : grid0.Coords, EltTy.bits .f32 = 32 ∨ (Rect.block (s := S1x1x22x22) S1x1x22x22.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x11x11.size a ≤ S1x1x11x11.size a
  hwx0_5 : ∀ i : grid0.Coords, EltTy.bits .f32 = 32 ∨ (Rect.block (s := S1x1x11x11) S1x1x11x11.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1x176x176.size a ≤ S1x1x176x176.size a
  hwx0_6 : ∀ i : grid0.Coords, EltTy.bits .f32 = 32 ∨ (Rect.block (s := S1x1x176x176) S1x1x176x176.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1x88x88.size a ≤ S1x1x88x88.size a
  hwx0_7 : ∀ i : grid0.Coords, EltTy.bits .f32 = 32 ∨ (Rect.block (s := S1x1x88x88) S1x1x88x88.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1x44x44.size a ≤ S1x1x44x44.size a
  hwx0_8 : ∀ i : grid0.Coords, EltTy.bits .f32 = 32 ∨ (Rect.block (s := S1x1x44x44) S1x1x44x44.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1x22x22.size a ≤ S1x1x22x22.size a
  hwx0_9 : ∀ i : grid0.Coords, EltTy.bits .f32 = 32 ∨ (Rect.block (s := S1x1x22x22) S1x1x22x22.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1x11x11.size a ≤ S1x1x11x11.size a
  hwx0_10 : ∀ i : grid0.Coords, EltTy.bits .f32 = 32 ∨ (Rect.block (s := S1x1x11x11) S1x1x11x11.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1x176x176.size a ≤ S1x1x176x176.size a
  hwx0_11 : ∀ i : grid0.Coords, EltTy.bits .f32 = 32 ∨ (Rect.block (s := S1x1x176x176) S1x1x176x176.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x12x352x352.size a ≤ S1x12x352x352.size a
  hwx0_12 : ∀ i : grid0.Coords, EltTy.bits .f32 = 32 ∨ (Rect.block (s := S1x12x352x352) S1x12x352x352.size (cc0_transform_12 i) (hinb0_12 i)).WholeWords (EltTy.packing .f32)

variable [Facts₀]

def dot_S352x176_S176x176_S352x176_1_0_0_1_n_n : DotDims S352x176 S176x176 S352x176 where
  lhsContracting := [1]
  rhsContracting := [0]
  lhsNonContracting := [0]
  rhsNonContracting := [1]
  lhsBatch := []
  rhsBatch := []
  wf := dot_S352x176_S176x176_S352x176_1_0_0_1_n_n_wf
def dot_S352x176_S352x176_S352x352_1_1_0_0_n_n : DotDims S352x176 S352x176 S352x352 where
  lhsContracting := [1]
  rhsContracting := [1]
  lhsNonContracting := [0]
  rhsNonContracting := [0]
  lhsBatch := []
  rhsBatch := []
  wf := dot_S352x176_S352x176_S352x352_1_1_0_0_n_n_wf
def dot_S352x88_S88x88_S352x88_1_0_0_1_n_n : DotDims S352x88 S88x88 S352x88 where
  lhsContracting := [1]
  rhsContracting := [0]
  lhsNonContracting := [0]
  rhsNonContracting := [1]
  lhsBatch := []
  rhsBatch := []
  wf := dot_S352x88_S88x88_S352x88_1_0_0_1_n_n_wf
def dot_S352x88_S352x88_S352x352_1_1_0_0_n_n : DotDims S352x88 S352x88 S352x352 where
  lhsContracting := [1]
  rhsContracting := [1]
  lhsNonContracting := [0]
  rhsNonContracting := [0]
  lhsBatch := []
  rhsBatch := []
  wf := dot_S352x88_S352x88_S352x352_1_1_0_0_n_n_wf
def dot_S352x44_S44x44_S352x44_1_0_0_1_n_n : DotDims S352x44 S44x44 S352x44 where
  lhsContracting := [1]
  rhsContracting := [0]
  lhsNonContracting := [0]
  rhsNonContracting := [1]
  lhsBatch := []
  rhsBatch := []
  wf := dot_S352x44_S44x44_S352x44_1_0_0_1_n_n_wf
def dot_S352x44_S352x44_S352x352_1_1_0_0_n_n : DotDims S352x44 S352x44 S352x352 where
  lhsContracting := [1]
  rhsContracting := [1]
  lhsNonContracting := [0]
  rhsNonContracting := [0]
  lhsBatch := []
  rhsBatch := []
  wf := dot_S352x44_S352x44_S352x352_1_1_0_0_n_n_wf
def dot_S352x22_S22x22_S352x22_1_0_0_1_n_n : DotDims S352x22 S22x22 S352x22 where
  lhsContracting := [1]
  rhsContracting := [0]
  lhsNonContracting := [0]
  rhsNonContracting := [1]
  lhsBatch := []
  rhsBatch := []
  wf := dot_S352x22_S22x22_S352x22_1_0_0_1_n_n_wf
def dot_S352x22_S352x22_S352x352_1_1_0_0_n_n : DotDims S352x22 S352x22 S352x352 where
  lhsContracting := [1]
  rhsContracting := [1]
  lhsNonContracting := [0]
  rhsNonContracting := [0]
  lhsBatch := []
  rhsBatch := []
  wf := dot_S352x22_S352x22_S352x352_1_1_0_0_n_n_wf
def dot_S352x11_S11x11_S352x11_1_0_0_1_n_n : DotDims S352x11 S11x11 S352x11 where
  lhsContracting := [1]
  rhsContracting := [0]
  lhsNonContracting := [0]
  rhsNonContracting := [1]
  lhsBatch := []
  rhsBatch := []
  wf := dot_S352x11_S11x11_S352x11_1_0_0_1_n_n_wf
def dot_S352x11_S352x11_S352x352_1_1_0_0_n_n : DotDims S352x11 S352x11 S352x352 where
  lhsContracting := [1]
  rhsContracting := [1]
  lhsNonContracting := [0]
  rhsNonContracting := [0]
  lhsBatch := []
  rhsBatch := []
  wf := dot_S352x11_S352x11_S352x352_1_1_0_0_n_n_wf

abbrev win0_0 : Pipeline.Window sig grid0 :=
  Pipeline.Window.ofSpec (Memref.whole main_arg0) S1x1x352x352.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x176x176.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x88x88.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x44x44.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x22x22.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1x11x11.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1x176x176.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x1x88x88.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x1x44x44.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x1x22x22.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x1x11x11.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x1x176x176.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0) S1x12x352x352.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S1x1x352x352 : Shape := ⟨4, ![1, 1, 352, 352]⟩
abbrev S1x1x176x176 : Shape := ⟨4, ![1, 1, 176, 176]⟩
abbrev S1x1x88x88 : Shape := ⟨4, ![1, 1, 88, 88]⟩
abbrev S1x1x44x44 : Shape := ⟨4, ![1, 1, 44, 44]⟩
abbrev S1x1x22x22 : Shape := ⟨4, ![1, 1, 22, 22]⟩
abbrev S1x1x11x11 : Shape := ⟨4, ![1, 1, 11, 11]⟩
abbrev S1x1x176x2x176 : Shape := ⟨5, ![1, 1, 176, 2, 176]⟩
abbrev S1x1x352x176 : Shape := ⟨4, ![1, 1, 352, 176]⟩
abbrev S1x1x352x176x2 : Shape := ⟨5, ![1, 1, 352, 176, 2]⟩
abbrev S_ : Shape := ⟨0, ![]⟩
abbrev S1x1x88x4x88 : Shape := ⟨5, ![1, 1, 88, 4, 88]⟩
abbrev S1x1x352x88 : Shape := ⟨4, ![1, 1, 352, 88]⟩
abbrev S1x1x352x88x4 : Shape := ⟨5, ![1, 1, 352, 88, 4]⟩
abbrev S1x1x44x8x44 : Shape := ⟨5, ![1, 1, 44, 8, 44]⟩
abbrev S1x1x352x44 : Shape := ⟨4, ![1, 1, 352, 44]⟩
abbrev S1x1x352x44x8 : Shape := ⟨5, ![1, 1, 352, 44, 8]⟩
abbrev S1x1x22x16x22 : Shape := ⟨5, ![1, 1, 22, 16, 22]⟩
abbrev S1x1x352x22 : Shape := ⟨4, ![1, 1, 352, 22]⟩
abbrev S1x1x352x22x16 : Shape := ⟨5, ![1, 1, 352, 22, 16]⟩
abbrev S1x1x11x32x11 : Shape := ⟨5, ![1, 1, 11, 32, 11]⟩
abbrev S1x1x352x11 : Shape := ⟨4, ![1, 1, 352, 11]⟩
abbrev S1x1x352x11x32 : Shape := ⟨5, ![1, 1, 352, 11, 32]⟩
abbrev S1x12x352x352 : Shape := ⟨4, ![1, 12, 352, 352]⟩

abbrev nBuf : Space → Nat
  | .hbm => 90
  | .vmem => 0
  | .smem => 0
  | _ => 0

abbrev bufTy : (tb : Table) → Fin (tcTables nBuf tb) → BufTy
  | .hbm, ⟨0, _⟩ => ⟨S1x1x352x352, .f32⟩
  | .hbm, ⟨1, _⟩ => ⟨S1x1x176x176, .f32⟩
  | .hbm, ⟨2, _⟩ => ⟨S1x1x88x88, .f32⟩
  | .hbm, ⟨3, _⟩ => ⟨S1x1x44x44, .f32⟩
  | .hbm, ⟨4, _⟩ => ⟨S1x1x22x22, .f32⟩
  | .hbm, ⟨5, _⟩ => ⟨S1x1x11x11, .f32⟩
  | .hbm, ⟨6, _⟩ => ⟨S1x1x176x176, .f32⟩
  | .hbm, ⟨7, _⟩ => ⟨S1x1x88x88, .f32⟩
  | .hbm, ⟨8, _⟩ => ⟨S1x1x44x44, .f32⟩
  | .hbm, ⟨9, _⟩ => ⟨S1x1x22x22, .f32⟩
  | .hbm, ⟨10, _⟩ => ⟨S1x1x11x11, .f32⟩
  | .hbm, ⟨11, _⟩ => ⟨S1x1x176x176, .f32⟩
  | .hbm, ⟨12, _⟩ => ⟨S1x1x176x2x176, .f32⟩
  | .hbm, ⟨13, _⟩ => ⟨S1x1x352x176, .f32⟩
  | .hbm, ⟨14, _⟩ => ⟨S1x1x352x176x2, .f32⟩
  | .hbm, ⟨15, _⟩ => ⟨S1x1x352x352, .f32⟩
  | .hbm, ⟨16, _⟩ => ⟨S_, .i32⟩
  | .hbm, ⟨17, _⟩ => ⟨S_, .f32⟩
  | .hbm, ⟨18, _⟩ => ⟨S1x1x352x352, .f32⟩
  | .hbm, ⟨19, _⟩ => ⟨S1x1x88x4x88, .f32⟩
  | .hbm, ⟨20, _⟩ => ⟨S1x1x352x88, .f32⟩
  | .hbm, ⟨21, _⟩ => ⟨S1x1x352x88x4, .f32⟩
  | .hbm, ⟨22, _⟩ => ⟨S1x1x352x352, .f32⟩
  | .hbm, ⟨23, _⟩ => ⟨S_, .i32⟩
  | .hbm, ⟨24, _⟩ => ⟨S_, .f32⟩
  | .hbm, ⟨25, _⟩ => ⟨S1x1x352x352, .f32⟩
  | .hbm, ⟨26, _⟩ => ⟨S1x1x44x8x44, .f32⟩
  | .hbm, ⟨27, _⟩ => ⟨S1x1x352x44, .f32⟩
  | .hbm, ⟨28, _⟩ => ⟨S1x1x352x44x8, .f32⟩
  | .hbm, ⟨29, _⟩ => ⟨S1x1x352x352, .f32⟩
  | .hbm, ⟨30, _⟩ => ⟨S_, .i32⟩
  | .hbm, ⟨31, _⟩ => ⟨S_, .f32⟩
  | .hbm, ⟨32, _⟩ => ⟨S1x1x352x352, .f32⟩
  | .hbm, ⟨33, _⟩ => ⟨S1x1x22x16x22, .f32⟩
  | .hbm, ⟨34, _⟩ => ⟨S1x1x352x22, .f32⟩
  | .hbm, ⟨35, _⟩ => ⟨S1x1x352x22x16, .f32⟩
  | .hbm, ⟨36, _⟩ => ⟨S1x1x352x352, .f32⟩
  | .hbm, ⟨37, _⟩ => ⟨S_, .i32⟩
  | .hbm, ⟨38, _⟩ => ⟨S_, .f32⟩
  | .hbm, ⟨39, _⟩ => ⟨S1x1x352x352, .f32⟩
  | .hbm, ⟨40, _⟩ => ⟨S1x1x11x32x11, .f32⟩
  | .hbm, ⟨41, _⟩ => ⟨S1x1x352x11, .f32⟩
  | .hbm, ⟨42, _⟩ => ⟨S1x1x352x11x32, .f32⟩
  | .hbm, ⟨43, _⟩ => ⟨S1x1x352x352, .f32⟩
  | .hbm, ⟨44, _⟩ => ⟨S_, .i32⟩
  | .hbm, ⟨45, _⟩ => ⟨S_, .f32⟩
  | .hbm, ⟨46, _⟩ => ⟨S1x1x352x352, .f32⟩
  | .hbm, ⟨47, _⟩ => ⟨S1x1x176x2x176, .f32⟩
  | .hbm, ⟨48, _⟩ => ⟨S1x1x352x176, .f32⟩
  | .hbm, ⟨49, _⟩ => ⟨S1x1x352x176x2, .f32⟩
  | .hbm, ⟨50, _⟩ => ⟨S1x1x352x352, .f32⟩
  | .hbm, ⟨51, _⟩ => ⟨S_, .i32⟩
  | .hbm, ⟨52, _⟩ => ⟨S_, .f32⟩
  | .hbm, ⟨53, _⟩ => ⟨S1x1x352x352, .f32⟩
  | .hbm, ⟨54, _⟩ => ⟨S1x1x88x4x88, .f32⟩
  | .hbm, ⟨55, _⟩ => ⟨S1x1x352x88, .f32⟩
  | .hbm, ⟨56, _⟩ => ⟨S1x1x352x88x4, .f32⟩
  | .hbm, ⟨57, _⟩ => ⟨S1x1x352x352, .f32⟩
  | .hbm, ⟨58, _⟩ => ⟨S_, .i32⟩
  | .hbm, ⟨59, _⟩ => ⟨S_, .f32⟩
  | .hbm, ⟨60, _⟩ => ⟨S1x1x352x352, .f32⟩
  | .hbm, ⟨61, _⟩ => ⟨S1x1x44x8x44, .f32⟩
  | .hbm, ⟨62, _⟩ => ⟨S1x1x352x44, .f32⟩
  | .hbm, ⟨63, _⟩ => ⟨S1x1x352x44x8, .f32⟩
  | .hbm, ⟨64, _⟩ => ⟨S1x1x352x352, .f32⟩
  | .hbm, ⟨65, _⟩ => ⟨S_, .i32⟩
  | .hbm, ⟨66, _⟩ => ⟨S_, .f32⟩
  | .hbm, ⟨67, _⟩ => ⟨S1x1x352x352, .f32⟩
  | .hbm, ⟨68, _⟩ => ⟨S1x1x22x16x22, .f32⟩
  | .hbm, ⟨69, _⟩ => ⟨S1x1x352x22, .f32⟩
  | .hbm, ⟨70, _⟩ => ⟨S1x1x352x22x16, .f32⟩
  | .hbm, ⟨71, _⟩ => ⟨S1x1x352x352, .f32⟩
  | .hbm, ⟨72, _⟩ => ⟨S_, .i32⟩
  | .hbm, ⟨73, _⟩ => ⟨S_, .f32⟩
  | .hbm, ⟨74, _⟩ => ⟨S1x1x352x352, .f32⟩
  | .hbm, ⟨75, _⟩ => ⟨S1x1x11x32x11, .f32⟩
  | .hbm, ⟨76, _⟩ => ⟨S1x1x352x11, .f32⟩
  | .hbm, ⟨77, _⟩ => ⟨S1x1x352x11x32, .f32⟩
  | .hbm, ⟨78, _⟩ => ⟨S1x1x352x352, .f32⟩
  | .hbm, ⟨79, _⟩ => ⟨S_, .i32⟩
  | .hbm, ⟨80, _⟩ => ⟨S_, .f32⟩
  | .hbm, ⟨81, _⟩ => ⟨S1x1x352x352, .f32⟩
  | .hbm, ⟨82, _⟩ => ⟨S1x1x176x2x176, .f32⟩
  | .hbm, ⟨83, _⟩ => ⟨S1x1x352x176, .f32⟩
  | .hbm, ⟨84, _⟩ => ⟨S1x1x352x176x2, .f32⟩
  | .hbm, ⟨85, _⟩ => ⟨S1x1x352x352, .f32⟩
  | .hbm, ⟨86, _⟩ => ⟨S_, .i32⟩
  | .hbm, ⟨87, _⟩ => ⟨S_, .f32⟩
  | .hbm, ⟨88, _⟩ => ⟨S1x1x352x352, .f32⟩
  | .hbm, ⟨89, _⟩ => ⟨S1x12x352x352, .f32⟩
  | _, _ => ⟨S1x1x352x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_call2_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_call3_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_3 : Ref sig .tc := ⟨.hbm, 44, rfl⟩
abbrev main_call4_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_4 : Ref sig .tc := ⟨.hbm, 51, rfl⟩
abbrev main_call5_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_call6_v0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_6 : Ref sig .tc := ⟨.hbm, 65, rfl⟩
abbrev main_call7_v0 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_7 : Ref sig .tc := ⟨.hbm, 72, rfl⟩
abbrev main_call8_v0 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_8 : Ref sig .tc := ⟨.hbm, 79, rfl⟩
abbrev main_call9_v0 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_9 : Ref sig .tc := ⟨.hbm, 86, rfl⟩
abbrev main_call10_v0 : Ref sig .tc := ⟨.hbm, 87, rfl⟩
abbrev main_v54 : Ref sig .tc := ⟨.hbm, 88, rfl⟩
abbrev main_v55 : Ref sig .tc := ⟨.hbm, 89, rfl⟩

abbrev nD : Nat := 1
abbrev τ : Topo := Topo.v7x

variable {F : FTy → Type} [FloatOps F]

class Facts₀ : Prop where
  bcast_S1x1x176x176_S1x1x176x2x176_0_1_2_4 : S1x1x176x176.BroadcastsInDim S1x1x176x2x176 (![0, 1, 2, 4] : Fin 4 → Fin S1x1x176x2x176.rank)
  shapeCasts_S1x1x176x2x176_S1x1x352x176 : S1x1x176x2x176.ShapeCasts S1x1x352x176
  bcast_S1x1x352x176_S1x1x352x176x2_0_1_2_3 : S1x1x352x176.BroadcastsInDim S1x1x352x176x2 (![0, 1, 2, 3] : Fin 4 → Fin S1x1x352x176x2.rank)
  shapeCasts_S1x1x352x176x2_S1x1x352x352 : S1x1x352x176x2.ShapeCasts S1x1x352x352
  pads_S1x1x352x352_S1x1x352x352_000_000_000_000 : S1x1x352x352.Pads (![0, 0, 0, 0] : Fin 4 → Nat) ![0, 0, 0, 0] ![0, 0, 0, 0] S1x1x352x352
  h_S_ : 0 < S_.numel
  bcast_S1x1x88x88_S1x1x88x4x88_0_1_2_4 : S1x1x88x88.BroadcastsInDim S1x1x88x4x88 (![0, 1, 2, 4] : Fin 4 → Fin S1x1x88x4x88.rank)
  shapeCasts_S1x1x88x4x88_S1x1x352x88 : S1x1x88x4x88.ShapeCasts S1x1x352x88
  bcast_S1x1x352x88_S1x1x352x88x4_0_1_2_3 : S1x1x352x88.BroadcastsInDim S1x1x352x88x4 (![0, 1, 2, 3] : Fin 4 → Fin S1x1x352x88x4.rank)
  shapeCasts_S1x1x352x88x4_S1x1x352x352 : S1x1x352x88x4.ShapeCasts S1x1x352x352
  bcast_S1x1x44x44_S1x1x44x8x44_0_1_2_4 : S1x1x44x44.BroadcastsInDim S1x1x44x8x44 (![0, 1, 2, 4] : Fin 4 → Fin S1x1x44x8x44.rank)
  shapeCasts_S1x1x44x8x44_S1x1x352x44 : S1x1x44x8x44.ShapeCasts S1x1x352x44
  bcast_S1x1x352x44_S1x1x352x44x8_0_1_2_3 : S1x1x352x44.BroadcastsInDim S1x1x352x44x8 (![0, 1, 2, 3] : Fin 4 → Fin S1x1x352x44x8.rank)
  shapeCasts_S1x1x352x44x8_S1x1x352x352 : S1x1x352x44x8.ShapeCasts S1x1x352x352
  bcast_S1x1x22x22_S1x1x22x16x22_0_1_2_4 : S1x1x22x22.BroadcastsInDim S1x1x22x16x22 (![0, 1, 2, 4] : Fin 4 → Fin S1x1x22x16x22.rank)
  shapeCasts_S1x1x22x16x22_S1x1x352x22 : S1x1x22x16x22.ShapeCasts S1x1x352x22
  bcast_S1x1x352x22_S1x1x352x22x16_0_1_2_3 : S1x1x352x22.BroadcastsInDim S1x1x352x22x16 (![0, 1, 2, 3] : Fin 4 → Fin S1x1x352x22x16.rank)
  shapeCasts_S1x1x352x22x16_S1x1x352x352 : S1x1x352x22x16.ShapeCasts S1x1x352x352
  bcast_S1x1x11x11_S1x1x11x32x11_0_1_2_4 : S1x1x11x11.BroadcastsInDim S1x1x11x32x11 (![0, 1, 2, 4] : Fin 4 → Fin S1x1x11x32x11.rank)
  shapeCasts_S1x1x11x32x11_S1x1x352x11 : S1x1x11x32x11.ShapeCasts S1x1x352x11
  bcast_S1x1x352x11_S1x1x352x11x32_0_1_2_3 : S1x1x352x11.BroadcastsInDim S1x1x352x11x32 (![0, 1, 2, 3] : Fin 4 → Fin S1x1x352x11x32.rank)
  shapeCasts_S1x1x352x11x32_S1x1x352x352 : S1x1x352x11x32.ShapeCasts S1x1x352x352
  concatenates_S1x1x352x352_S1x1x352x352_S1x1x352x352_S1x1x352x352_S1x1x352x352_S1x1x352x352_S1x1x352x352_S1x1x352x352_S1x1x352x352_S1x1x352x352_S1x1x352x352_S1x1x352x352_S1x12x352x352_d1 : Shape.Concatenates [S1x1x352x352, S1x1x352x352, S1x1x352x352, S1x1x352x352, S1x1x352x352, S1x1x352x352, S1x1x352x352, S1x1x352x352, S1x1x352x352, S1x1x352x352, S1x1x352x352, S1x1x352x352] S1x12x352x352 1

variable [Facts₀]

class Facts : Prop extends Facts₀ where

variable [Facts]
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.LibTransposedRhsDot.lean ====
/-
  The product of an M×K matrix with the transpose of an N×K matrix, read at one entry.

  Both operands are contracted along their last axis, so entry (p, q) of the result is the sum over
  k of left (p, k) times right (q, k). Stated for the dimension record `DotDims.transposedRhs M K N`
  at the exact instance, for the accelerator's product into the zero accumulator and for the host's
  product; general in the three extents. A printed record with contracting axes [1] and [1], free
  axes [0] and [0] and no batch axes is this record (the two differ only in a proof field).
-/
import Idealize.ShloMosaic.Lib.ValueIdx
import Idealize.ShloMosaic.PureOps.Ideal.Laws

noncomputable section

open scoped BigOperators

namespace Cert.LibTransposedRhsDot

open Idealize.ShloMosaic Idealize.ShloMosaic.ValueIdx

variable {M K N : ℕ}

/-- The left operand's index for result entry (p, q) and contraction position k is (p, k). -/
theorem lhsIdx_eq (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a; apply Fin.ext
  match a with
  | ⟨0, _⟩ =>
    show ((DotDims.transposedRhs M K N).lhsIdx (ix2 p q) _ 0).val = p.val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl _ _).trans hk

/-- The right operand's index for result entry (p, q) and contraction position k is (q, k). -/
theorem rhsIdx_eq (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a; apply Fin.ext
  match a with
  | ⟨0, _⟩ =>
    show ((DotDims.transposedRhs M K N).rhsIdx (ix2 p q) _ 0).val = q.val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl _ _).trans hk

/-- The accelerator's product into the zero accumulator: entry (p, q) is the sum over k of
    left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant (F := Ideal) ⟨2, ![M, N]⟩ .f32 0x00000000#32) (ix2 p q)
      = ∑ k : Fin K, l (ix2 p k) * r (ix2 q k) := by
  refine (Ideal.matmul_constant_zero_apply (DotDims.transposedRhs M K N) prec l r (ix2 p q)).trans ?_
  rw [← Equiv.sum_comp (contrEquiv1 (DotDims.transposedRhs M K N) K rfl rfl).symm]
  refine Finset.sum_congr rfl fun k _ => ?_
  rw [lhsIdx_eq, rhsIdx_eq]

/-- The host's product of the same shape: the same sum. -/
theorem dotGeneral_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) := by
  show FloatOps.dotGeneral _ prec _ l r (ix2 p q) = _
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhsDot

end
-- ==== Proof.LibNearestResize.lean ====
/-
  Nearest-neighbour enlargement of a square matrix written as two matrix products with a 0/1 matrix.

  For extents H (target side), h (source side) and a divisor word d, the matrix R : [H, h] has R (p, k) = 1 when the
  floor quotient of p by d is k and 0 otherwise: one 1 per row.  It is built on 32-bit words from the row number and the
  column number: the signed quotient, corrected downwards when the signs of dividend and divisor differ and the
  remainder is not zero, compared with the column number, and the resulting bit converted to a float.
  On the extended reals 0 * x = 0 for every x (also the infinite ones) and a sum with at most one nonzero term is that
  term, so for any X : [h, h]
      ((R · X) · Rᵀ) (i, j) = X (i / n, j / n)
  whenever the word quotient of every row number p < H is p / n and p / n < h.  No finiteness of X is needed.
  General in H, h, n and the two precision keys of the products.
-/
import Idealize.ShloMosaic.PureOps.Ideal
import Idealize.ShloMosaic.PureOps.Ideal.Laws
import Idealize.ShloMosaic.Lib.ValueIdx
import Idealize.ShloMosaic.Lib.Pipeline.Value
import proofs.«182170_j21698174779469_2_alg».proof.Proof.LibPlainDot
import proofs.«182170_j21698174779469_2_alg».proof.Proof.LibTransposedRhsDot

noncomputable section

open scoped BigOperators

namespace Cert.LibNearestResize

open Idealize.ShloMosaic Idealize.ShloMosaic.ValueIdx

/-! ## The words -/

/-- The floor quotient of two signed words, as it is computed: the quotient rounded toward zero, less one when the
    signs of `x` and `d` differ and the remainder is not zero. -/
def floorDivWord (x d : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32)
    (IntOp.divsi .vector x d)

/-- The bit "word `a` equals word `b`", widened and converted, is 1 or 0 on the extended reals. -/
theorem indicator_word (a b : ℕ) (ha : a < 2 ^ 32) (hb : b < 2 ^ 32) :
    FloatOps.sitofp (F := Ideal) .f32 ((IntOp.cmpi .eq (BitVec.ofNat 32 a) (BitVec.ofNat 32 b)).setWidth 32)
      = if a = b then (1 : EReal) else 0 := by
  show ((((IntOp.cmpi .eq (BitVec.ofNat 32 a) (BitVec.ofNat 32 b)).setWidth 32).toInt : ℝ) : EReal) = _
  by_cases h : a = b
  · subst h
    rw [if_pos rfl]
    have e : (IntOp.cmpi .eq (BitVec.ofNat 32 a) (BitVec.ofNat 32 a)).setWidth 32 = 1#32 := by
      simp [IntOp.cmpi]
    rw [e]; norm_num
  · rw [if_neg h]
    have hne : BitVec.ofNat 32 a ≠ BitVec.ofNat 32 b := by
      intro e
      have := congrArg BitVec.toNat e
      simp only [BitVec.toNat_ofNat] at this
      rw [Nat.mod_eq_of_lt ha, Nat.mod_eq_of_lt hb] at this
      exact h this
    have hbeq : (BitVec.ofNat 32 a == BitVec.ofNat 32 b) = false := beq_eq_false_iff_ne.mpr hne
    have e : (IntOp.cmpi .eq (BitVec.ofNat 32 a) (BitVec.ofNat 32 b)).setWidth 32 = 0#32 := by
      simp [IntOp.cmpi, hbeq]
    rw [e]; norm_num

/-! ## The 0/1 matrix -/

section Matrix
variable {F : FTy → Type} [FloatOps F]

/-- The matrix R as a vector program over any extents: row number, column number, floor quotient of the row number by
    `d`, comparison, conversion. -/
def repMat (H h : ℕ) (h0 : (⟨2, ![H, h]⟩ : Shape).Iotas .tc 32 [0]) (h1 : (⟨2, ![H, h]⟩ : Shape).Iotas .tc 32 [1])
    (d : BitVec 32) : FVec F ⟨2, ![H, h]⟩ .f32 :=
  sitofp .f32 (extui 32 (cmpi .eq
    (select
      (andi
        (cmpi .ne
          (subi (extui 32 (cmpi .sgt (iota .tc ⟨2, ![H, h]⟩ 32 [0] h0) (broadcast ⟨2, ![H, h]⟩ 0#32)) (by decide))
                (extui 32 (cmpi .slt (iota .tc ⟨2, ![H, h]⟩ 32 [0] h0) (broadcast ⟨2, ![H, h]⟩ 0#32)) (by decide)))
          (broadcast ⟨2, ![H, h]⟩ (Scalar.subi (Scalar.extui (Scalar.cmpi .sgt d 0#32)) (Scalar.extui (Scalar.cmpi .slt d 0#32)))))
        (cmpi .ne (remsi (iota .tc ⟨2, ![H, h]⟩ 32 [0] h0) (broadcast ⟨2, ![H, h]⟩ d)) (broadcast ⟨2, ![H, h]⟩ 0#32)))
      (subi (divsi (iota .tc ⟨2, ![H, h]⟩ 32 [0] h0) (broadcast ⟨2, ![H, h]⟩ d)) (broadcast ⟨2, ![H, h]⟩ 1#32))
      (divsi (iota .tc ⟨2, ![H, h]⟩ 32 [0] h0) (broadcast ⟨2, ![H, h]⟩ d)))
    (iota .tc ⟨2, ![H, h]⟩ 32 [1] h1)) (by decide))

/-- Entry (p, k) of R in words: the converted bit "floor quotient of p by d equals k". -/
theorem repMat_apply_word (H h : ℕ) (h0 : (⟨2, ![H, h]⟩ : Shape).Iotas .tc 32 [0])
    (h1 : (⟨2, ![H, h]⟩ : Shape).Iotas .tc 32 [1]) (d : BitVec 32) (p : Fin H) (k : Fin h) :
    repMat (F := F) H h h0 h1 d (ix2 p k)
      = FloatOps.sitofp .f32 ((IntOp.cmpi .eq (floorDivWord (BitVec.ofNat 32 p.val) d) (BitVec.ofNat 32 k.val)).setWidth 32) := by
  have e0 : iota .tc ⟨2, ![H, h]⟩ 32 [0] h0 (ix2 p k) = BitVec.ofNat 32 p.val :=
    iota_single_apply .tc ⟨2, ![H, h]⟩ 32 0 h0 (ix2 p k)
  have e1 : iota .tc ⟨2, ![H, h]⟩ 32 [1] h1 (ix2 p k) = BitVec.ofNat 32 k.val :=
    iota_single_apply .tc ⟨2, ![H, h]⟩ 32 1 h1 (ix2 p k)
  show FloatOps.sitofp .f32 ((IntOp.cmpi .eq (floorDivWord (iota .tc ⟨2, ![H, h]⟩ 32 [0] h0 (ix2 p k)) d)
      (iota .tc ⟨2, ![H, h]⟩ 32 [1] h1 (ix2 p k))).setWidth 32) = _
  rw [e0, e1]

end Matrix

/-- Entry (p, k) of R on the extended reals: 1 when p / n = k, else 0 — given that the word quotient of the row number
    p by d is the natural quotient p / n. -/
theorem repMat_apply (H h n : ℕ) (h0 : (⟨2, ![H, h]⟩ : Shape).Iotas .tc 32 [0])
    (h1 : (⟨2, ![H, h]⟩ : Shape).Iotas .tc 32 [1]) (d : BitVec 32) (hh : h ≤ 2 ^ 32)
    (p : Fin H) (hfd : floorDivWord (BitVec.ofNat 32 p.val) d = BitVec.ofNat 32 (p.val / n)) (hlt : p.val / n < h)
    (k : Fin h) :
    repMat (F := Ideal) H h h0 h1 d (ix2 p k) = if p.val / n = k.val then (1 : EReal) else 0 := by
  rw [repMat_apply_word, hfd]
  exact indicator_word _ _ (by omega) (by have := k.isLt; omega)

/-! ## A sum with one nonzero term -/

/-- Σ_k [a = k] · f k = f a on the extended reals: every other term is 0 · f k = 0. -/
theorem sum_indicator_mul {K : ℕ} (a : Fin K) (f : Fin K → EReal) :
    ∑ k : Fin K, (if a.val = k.val then (1 : EReal) else 0) * f k = f a := by
  rw [Finset.sum_eq_single a]
  · rw [if_pos rfl, one_mul]
  · intro k _ hk
    rw [if_neg (fun e => hk (Fin.ext e.symm)), zero_mul]
  · intro ha; exact absurd (Finset.mem_univ a) ha

/-- The same with the 0/1 factor on the right. -/
theorem sum_mul_indicator {K : ℕ} (a : Fin K) (f : Fin K → EReal) :
    ∑ k : Fin K, f k * (if a.val = k.val then (1 : EReal) else 0) = f a := by
  rw [← sum_indicator_mul a f]
  exact Finset.sum_congr rfl fun k _ => mul_comm _ _

/-! ## The two products -/

/-- (R · X) · Rᵀ at (i, j) is X at (i / n, j / n): the first product picks row i / n of X, the second column j / n. -/
theorem upsample_apply (H h n : ℕ) (h0 : (⟨2, ![H, h]⟩ : Shape).Iotas .tc 32 [0])
    (h1 : (⟨2, ![H, h]⟩ : Shape).Iotas .tc 32 [1]) (d : BitVec 32) (hh : h ≤ 2 ^ 32)
    (hfd : ∀ p : Fin H, floorDivWord (BitVec.ofNat 32 p.val) d = BitVec.ofNat 32 (p.val / n))
    (hlt : ∀ p : Fin H, p.val / n < h)
    (prec1 prec2 : Option ContractPrecision) (X : FVec Ideal ⟨2, ![h, h]⟩ .f32) (i j : Fin H) :
    matmul (DotDims.transposedRhs H h H) prec2
        (matmul (DotDims.plain H h h) prec1 (repMat (F := Ideal) H h h0 h1 d) X
          (constant (F := Ideal) ⟨2, ![H, h]⟩ .f32 0x00000000#32))
        (repMat (F := Ideal) H h h0 h1 d) (constant (F := Ideal) ⟨2, ![H, H]⟩ .f32 0x00000000#32) (ix2 i j)
      = X (ix2 (⟨i.val / n, hlt i⟩ : Fin h) (⟨j.val / n, hlt j⟩ : Fin h)) := by
  rw [Cert.LibTransposedRhsDot.matmul_zero_apply]
  have hrow : ∀ k : Fin h,
      matmul (DotDims.plain H h h) prec1 (repMat (F := Ideal) H h h0 h1 d) X
          (constant (F := Ideal) ⟨2, ![H, h]⟩ .f32 0x00000000#32) (ix2 i k)
        = X (ix2 (⟨i.val / n, hlt i⟩ : Fin h) k) := by
    intro k
    refine (Cert.LibPlainDot.matmul_zero_apply H h h prec1 _ X (ix2 i k)).trans ?_
    have : ∀ l : Fin h, repMat (F := Ideal) H h h0 h1 d (ix2 ((ix2 i k : (⟨2, ![H, h]⟩ : Shape).Idx) 0) l)
        = if (⟨i.val / n, hlt i⟩ : Fin h).val = l.val then (1 : EReal) else 0 :=
      fun l => repMat_apply H h n h0 h1 d hh i (hfd i) (hlt i) l
    simp only [this]
    exact sum_indicator_mul (⟨i.val / n, hlt i⟩ : Fin h) fun l => X (ix2 l ((ix2 i k : (⟨2, ![H, h]⟩ : Shape).Idx) 1))
  simp only [hrow]
  have : ∀ k : Fin h, repMat (F := Ideal) H h h0 h1 d (ix2 j k)
      = if (⟨j.val / n, hlt j⟩ : Fin h).val = k.val then (1 : EReal) else 0 :=
    fun k => repMat_apply H h n h0 h1 d hh j (hfd j) (hlt j) k
  simp only [this]
  exact sum_mul_indicator (⟨j.val / n, hlt j⟩ : Fin h) fun k => X (ix2 (⟨i.val / n, hlt i⟩ : Fin h) k)

/-! ## The same with the two leading unit axes of an image block -/

/-- An [a, b] matrix viewed as [1, 1, a, b], read at (0, 0, i, j), is the matrix at (i, j). -/
theorem shapeCast_lead2_apply {α : Type} (a b : ℕ) (v : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ v h (ix4 (0 : Fin 1) (0 : Fin 1) i j) = v (ix2 i j) :=
  shapeCast_apply v h _ (ix2 i j) (by
    rw [Shape.rowMajor_val_two, Shape.rowMajor_val_four]
    show i.val * b + j.val = (((0 : ℕ) * 1 + 0) * a + i.val) * b + j.val
    simp)

/-- A [1, 1, a, b] block viewed as an [a, b] matrix, read at (i, j), is the block at (0, 0, i, j). -/
theorem shapeCast_drop2_apply {α : Type} (a b : ℕ) (v : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ v h (ix2 i j) = v (ix4 (0 : Fin 1) (0 : Fin 1) i j) :=
  shapeCast_apply v h _ (ix4 (0 : Fin 1) (0 : Fin 1) i j) (by
    rw [Shape.rowMajor_val_two, Shape.rowMajor_val_four]
    show (((0 : ℕ) * 1 + 0) * a + i.val) * b + j.val = i.val * b + j.val
    simp)

/-- The whole computation on one image block X : [1, 1, h, h]: view it as a matrix, form (R · X) · Rᵀ, view the result
    as a [1, 1, H, H] block. -/
def upsampled {F : FTy → Type} [FloatOps F] (H h : ℕ) (h0 : (⟨2, ![H, h]⟩ : Shape).Iotas .tc 32 [0])
    (h1 : (⟨2, ![H, h]⟩ : Shape).Iotas .tc 32 [1]) (d : BitVec 32) (prec1 prec2 : Option ContractPrecision)
    (hin : (⟨4, ![1, 1, h, h]⟩ : Shape).ShapeCasts ⟨2, ![h, h]⟩)
    (hout : (⟨2, ![H, H]⟩ : Shape).ShapeCasts ⟨4, ![1, 1, H, H]⟩)
    (X : FVec F ⟨4, ![1, 1, h, h]⟩ .f32) : FVec F ⟨4, ![1, 1, H, H]⟩ .f32 :=
  shapeCast ⟨4, ![1, 1, H, H]⟩
    (matmul (DotDims.transposedRhs H h H) prec2
      (matmul (DotDims.plain H h h) prec1 (repMat H h h0 h1 d) (shapeCast ⟨2, ![h, h]⟩ X hin)
        (constant ⟨2, ![H, h]⟩ .f32 0x00000000#32))
      (repMat H h h0 h1 d) (constant ⟨2, ![H, H]⟩ .f32 0x00000000#32)) hout

/-- Its entry (0, 0, i, j) is X at (0, 0, i / n, j / n). -/
theorem upsampled_apply (H h n : ℕ) (h0 : (⟨2, ![H, h]⟩ : Shape).Iotas .tc 32 [0])
    (h1 : (⟨2, ![H, h]⟩ : Shape).Iotas .tc 32 [1]) (d : BitVec 32) (hh : h ≤ 2 ^ 32)
    (hfd : ∀ p : Fin H, floorDivWord (BitVec.ofNat 32 p.val) d = BitVec.ofNat 32 (p.val / n))
    (hlt : ∀ p : Fin H, p.val / n < h) (prec1 prec2 : Option ContractPrecision)
    (hin : (⟨4, ![1, 1, h, h]⟩ : Shape).ShapeCasts ⟨2, ![h, h]⟩)
    (hout : (⟨2, ![H, H]⟩ : Shape).ShapeCasts ⟨4, ![1, 1, H, H]⟩)
    (X : FVec Ideal ⟨4, ![1, 1, h, h]⟩ .f32) (i j : Fin H) :
    upsampled (F := Ideal) H h h0 h1 d prec1 prec2 hin hout X (ix4 (0 : Fin 1) (0 : Fin 1) i j)
      = X (ix4 (0 : Fin 1) (0 : Fin 1) (⟨i.val / n, hlt i⟩ : Fin h) (⟨j.val / n, hlt j⟩ : Fin h)) := by
  unfold upsampled
  rw [shapeCast_lead2_apply, upsample_apply H h n h0 h1 d hh hfd hlt, shapeCast_drop2_apply]

end Cert.LibNearestResize

end
-- ==== Proof.Spec.lean ====
/-
  What both programs compute: twelve square images stacked along the channel axis of one array of shape
  [1, 12, 352, 352].  Channel 0 is the first image as it is.  Every other channel is an image of side h, a divisor of
  352, enlarged by the whole factor n = 352 / h: entry (i, j) of the channel is entry (i / n, j / n) of the image
  (each source entry is repeated over an n-by-n square; no entry is left over, since h * n = 352).
-/
import Idealize.ShloMosaic.PureOps.Ideal
import Idealize.ShloMosaic.Lib.ValueIdx

noncomputable section

namespace Cert.Resize

open Idealize.ShloMosaic Idealize.ShloMosaic.ValueIdx

/-- The source coordinate of target coordinate `i` under enlargement by `n`: the quotient `i / n`, which is below
    `h` because `352 ≤ h * n`. -/
def srcCoord (h n : ℕ) (hn : 0 < n) (e : 352 ≤ h * n) (i : Fin 352) : Fin h :=
  ⟨i.val / n, (Nat.div_lt_iff_lt_mul hn).2 (lt_of_lt_of_le i.isLt e)⟩

@[simp] theorem srcCoord_val (h n : ℕ) (hn : 0 < n) (e : 352 ≤ h * n) (i : Fin 352) :
    (srcCoord h n hn e i).val = i.val / n := rfl

/-- An image of side `h` enlarged by `n`, read at target entry `(i, j)`. -/
def enlarged {h : ℕ} (n : ℕ) (hn : 0 < n) (e : 352 ≤ h * n)
    (x : (⟨4, ![1, 1, h, h]⟩ : Shape).Idx → EReal) (i j : Fin 352) : EReal :=
  x (ix4 (0 : Fin 1) (0 : Fin 1) (srcCoord h n hn e i) (srcCoord h n hn e j))

section
variable (x0 : (⟨4, ![1, 1, 352, 352]⟩ : Shape).Idx → EReal)
  (x1 : (⟨4, ![1, 1, 176, 176]⟩ : Shape).Idx → EReal) (x2 : (⟨4, ![1, 1, 88, 88]⟩ : Shape).Idx → EReal)
  (x3 : (⟨4, ![1, 1, 44, 44]⟩ : Shape).Idx → EReal) (x4 : (⟨4, ![1, 1, 22, 22]⟩ : Shape).Idx → EReal)
  (x5 : (⟨4, ![1, 1, 11, 11]⟩ : Shape).Idx → EReal) (x6 : (⟨4, ![1, 1, 176, 176]⟩ : Shape).Idx → EReal)
  (x7 : (⟨4, ![1, 1, 88, 88]⟩ : Shape).Idx → EReal) (x8 : (⟨4, ![1, 1, 44, 44]⟩ : Shape).Idx → EReal)
  (x9 : (⟨4, ![1, 1, 22, 22]⟩ : Shape).Idx → EReal) (x10 : (⟨4, ![1, 1, 11, 11]⟩ : Shape).Idx → EReal)
  (x11 : (⟨4, ![1, 1, 176, 176]⟩ : Shape).Idx → EReal)

/-- Channel `c` of the result at `(i, j)`: the sides are 352, 176, 88, 44, 22, 11, 176, 88, 44, 22, 11, 176 and the
    factors 1, 2, 4, 8, 16, 32, 2, 4, 8, 16, 32, 2. -/
def channel (c : Fin 12) (i j : Fin 352) : EReal :=
  match c with
  | ⟨0, _⟩ => x0 (ix4 (0 : Fin 1) (0 : Fin 1) i j)
  | ⟨1, _⟩ => enlarged 2 (by decide) (by decide) x1 i j
  | ⟨2, _⟩ => enlarged 4 (by decide) (by decide) x2 i j
  | ⟨3, _⟩ => enlarged 8 (by decide) (by decide) x3 i j
  | ⟨4, _⟩ => enlarged 16 (by decide) (by decide) x4 i j
  | ⟨5, _⟩ => enlarged 32 (by decide) (by decide) x5 i j
  | ⟨6, _⟩ => enlarged 2 (by decide) (by decide) x6 i j
  | ⟨7, _⟩ => enlarged 4 (by decide) (by decide) x7 i j
  | ⟨8, _⟩ => enlarged 8 (by decide) (by decide) x8 i j
  | ⟨9, _⟩ => enlarged 16 (by decide) (by decide) x9 i j
  | ⟨10, _⟩ => enlarged 32 (by decide) (by decide) x10 i j
  | ⟨11, _⟩ => enlarged 2 (by decide) (by decide) x11 i j
  | ⟨k + 12, hk⟩ => absurd hk (by omega)

/-- The whole result: entry `(0, c, i, j)` is channel `c` at `(i, j)`. -/
def G : (⟨4, ![1, 12, 352, 352]⟩ : Shape).Idx → EReal :=
  fun y => channel x0 x1 x2 x3 x4 x5 x6 x7 x8 x9 x10 x11 (y 1) (y 2) (y 3)

theorem G_apply (y : (⟨4, ![1, 12, 352, 352]⟩ : Shape).Idx) :
    G x0 x1 x2 x3 x4 x5 x6 x7 x8 x9 x10 x11 y = channel x0 x1 x2 x3 x4 x5 x6 x7 x8 x9 x10 x11 (y 1) (y 2) (y 3) := rfl

end

end Cert.Resize

end
-- ==== Proof.KernelPieces.lean ====
/-
  The twelve stored pieces of the kernel, each read at an entry.

  Channel 0 stores the first image unchanged (two shape casts that undo each other).  Each other channel c stores
  (R · X) · Rᵀ of its image X of side h, with R the 0/1 matrix of the floor quotient by n = 352 / h; its entry (i, j) is
  X (i / n, j / n).  The pieces spell that one computation with their common parts shared in different places; each is
  the same term once its parts are put back.
-/
import proofs.«182170_j21698174779469_2_alg».proof.Proof.Gen.KernelIdeal.Skeleton
import proofs.«182170_j21698174779469_2_alg».proof.Proof.LibNearestResize
import proofs.«182170_j21698174779469_2_alg».proof.Proof.Spec
import Idealize.ShloMosaic.Lib.Pipeline.Value

noncomputable section

namespace Cert.KernelValue

open Cert.KernelIdeal Cert.KernelIdeal.Gen Idealize.ShloMosaic Idealize.ShloMosaic.ValueIdx Cert.LibNearestResize

/-! ## The word quotient of a row number below 352 by 2, 4, 8, 16, 32 is the natural quotient -/

theorem fd2 : ∀ p : Fin 352, floorDivWord (BitVec.ofNat 32 p.val) 2#32 = BitVec.ofNat 32 (p.val / 2) := by decide +kernel
theorem fd4 : ∀ p : Fin 352, floorDivWord (BitVec.ofNat 32 p.val) 4#32 = BitVec.ofNat 32 (p.val / 4) := by decide +kernel
theorem fd8 : ∀ p : Fin 352, floorDivWord (BitVec.ofNat 32 p.val) 8#32 = BitVec.ofNat 32 (p.val / 8) := by decide +kernel
theorem fd16 : ∀ p : Fin 352, floorDivWord (BitVec.ofNat 32 p.val) 16#32 = BitVec.ofNat 32 (p.val / 16) := by decide +kernel
theorem fd32 : ∀ p : Fin 352, floorDivWord (BitVec.ofNat 32 p.val) 32#32 = BitVec.ofNat 32 (p.val / 32) := by decide +kernel

/-! ## Channel 0: the image itself -/

theorem chan0_apply (x : Vec Ideal S1x1x352x352 .f32) (i j : Fin 352) :
    k0_pay2 (F := Ideal) x (ix4 (0 : Fin 1) (0 : Fin 1) i j) = x (ix4 (0 : Fin 1) (0 : Fin 1) i j) :=
  (shapeCast_lead2_apply 352 352 (shapeCast S352x352 x shapeCasts_S1x1x352x352_S352x352) shapeCasts_S352x352_S1x1x352x352 i j).trans
    (shapeCast_drop2_apply 352 352 x shapeCasts_S1x1x352x352_S352x352 i j)

/-! ## Channels 1 to 11: each piece is the enlargement of its image -/

theorem piece1 (x : Vec Ideal S1x1x176x176 .f32) :
    k0_pay5 (k0_pay3 (F := Ideal)) (k0_pay4 x) (constant S352x352 .f32 0x00000000#32)
      = upsampled 352 176 iota_S352x176_d0_w32 iota_S352x176_d1_w32 2#32 (some .fp32) (some .fp32)
          shapeCasts_S1x1x176x176_S176x176 shapeCasts_S352x352_S1x1x352x352 x := rfl

theorem chan1_apply (x : Vec Ideal S1x1x176x176 .f32) (i j : Fin 352) :
    (k0_pay5 (k0_pay3 (F := Ideal)) (k0_pay4 x) (constant S352x352 .f32 0x00000000#32)) (ix4 (0 : Fin 1) (0 : Fin 1) i j)
      = Cert.Resize.enlarged 2 (by decide) (by decide) x i j :=
  (congrFun (piece1 x) _).trans
    (upsampled_apply 352 176 2 _ _ 2#32 (by decide) fd2 (fun p => by have := p.isLt; omega) _ _ _ _ x i j)

theorem piece2 (x : Vec Ideal S1x1x88x88 .f32) :
    k0_pay7 (k0_pay6 x)
      = upsampled 352 88 iota_S352x88_d0_w32 iota_S352x88_d1_w32 4#32 (some .fp32) (some .fp32)
          shapeCasts_S1x1x88x88_S88x88 shapeCasts_S352x352_S1x1x352x352 x := rfl

theorem chan2_apply (x : Vec Ideal S1x1x88x88 .f32) (i j : Fin 352) :
    (k0_pay7 (k0_pay6 x)) (ix4 (0 : Fin 1) (0 : Fin 1) i j)
      = Cert.Resize.enlarged 4 (by decide) (by decide) x i j :=
  (congrFun (piece2 x) _).trans
    (upsampled_apply 352 88 4 _ _ 4#32 (by decide) fd4 (fun p => by have := p.isLt; omega) _ _ _ _ x i j)

theorem piece3 (x : Vec Ideal S1x1x44x44 .f32) :
    k0_pay8 x
      = upsampled 352 44 iota_S352x44_d0_w32 iota_S352x44_d1_w32 8#32 (some .fp32) (some .fp32)
          shapeCasts_S1x1x44x44_S44x44 shapeCasts_S352x352_S1x1x352x352 x := rfl

theorem chan3_apply (x : Vec Ideal S1x1x44x44 .f32) (i j : Fin 352) :
    (k0_pay8 x) (ix4 (0 : Fin 1) (0 : Fin 1) i j)
      = Cert.Resize.enlarged 8 (by decide) (by decide) x i j :=
  (congrFun (piece3 x) _).trans
    (upsampled_apply 352 44 8 _ _ 8#32 (by decide) fd8 (fun p => by have := p.isLt; omega) _ _ _ _ x i j)

theorem piece4 (x : Vec Ideal S1x1x22x22 .f32) :
    k0_pay9 x
      = upsampled 352 22 iota_S352x22_d0_w32 iota_S352x22_d1_w32 16#32 (some .fp32) (some .fp32)
          shapeCasts_S1x1x22x22_S22x22 shapeCasts_S352x352_S1x1x352x352 x := rfl

theorem chan4_apply (x : Vec Ideal S1x1x22x22 .f32) (i j : Fin 352) :
    (k0_pay9 x) (ix4 (0 : Fin 1) (0 : Fin 1) i j)
      = Cert.Resize.enlarged 16 (by decide) (by decide) x i j :=
  (congrFun (piece4 x) _).trans
    (upsampled_apply 352 22 16 _ _ 16#32 (by decide) fd16 (fun p => by have := p.isLt; omega) _ _ _ _ x i j)

theorem piece5 (x : Vec Ideal S1x1x11x11 .f32) :
    k0_pay11 (k0_pay10 x) (iota .tc S352x11 32 [0] iota_S352x11_d0_w32) (iota .tc S352x11 32 [1] iota_S352x11_d1_w32) 32#32
      = upsampled 352 11 iota_S352x11_d0_w32 iota_S352x11_d1_w32 32#32 (some .fp32) (some .fp32)
          shapeCasts_S1x1x11x11_S11x11 shapeCasts_S352x352_S1x1x352x352 x := rfl

theorem chan5_apply (x : Vec Ideal S1x1x11x11 .f32) (i j : Fin 352) :
    (k0_pay11 (k0_pay10 x) (iota .tc S352x11 32 [0] iota_S352x11_d0_w32) (iota .tc S352x11 32 [1] iota_S352x11_d1_w32) 32#32) (ix4 (0 : Fin 1) (0 : Fin 1) i j)
      = Cert.Resize.enlarged 32 (by decide) (by decide) x i j :=
  (congrFun (piece5 x) _).trans
    (upsampled_apply 352 11 32 _ _ 32#32 (by decide) fd32 (fun p => by have := p.isLt; omega) _ _ _ _ x i j)

theorem piece6 (x : Vec Ideal S1x1x176x176 .f32) :
    k0_pay15 (k0_pay12 x) (iota .tc S352x176 32 [0] iota_S352x176_d0_w32) (iota .tc S352x176 32 [1] iota_S352x176_d1_w32) 2#32 k0_pay13 k0_pay14
      = upsampled 352 176 iota_S352x176_d0_w32 iota_S352x176_d1_w32 2#32 (some .fp32) (some .fp32)
          shapeCasts_S1x1x176x176_S176x176 shapeCasts_S352x352_S1x1x352x352 x := rfl

theorem chan6_apply (x : Vec Ideal S1x1x176x176 .f32) (i j : Fin 352) :
    (k0_pay15 (k0_pay12 x) (iota .tc S352x176 32 [0] iota_S352x176_d0_w32) (iota .tc S352x176 32 [1] iota_S352x176_d1_w32) 2#32 k0_pay13 k0_pay14) (ix4 (0 : Fin 1) (0 : Fin 1) i j)
      = Cert.Resize.enlarged 2 (by decide) (by decide) x i j :=
  (congrFun (piece6 x) _).trans
    (upsampled_apply 352 176 2 _ _ 2#32 (by decide) fd2 (fun p => by have := p.isLt; omega) _ _ _ _ x i j)

theorem piece7 (x : Vec Ideal S1x1x88x88 .f32) :
    k0_pay19 (k0_pay16 x) (iota .tc S352x88 32 [0] iota_S352x88_d0_w32) (iota .tc S352x88 32 [1] iota_S352x88_d1_w32) 4#32 k0_pay17 k0_pay18 0#32
      = upsampled 352 88 iota_S352x88_d0_w32 iota_S352x88_d1_w32 4#32 (some .fp32) (some .fp32)
          shapeCasts_S1x1x88x88_S88x88 shapeCasts_S352x352_S1x1x352x352 x := rfl

theorem chan7_apply (x : Vec Ideal S1x1x88x88 .f32) (i j : Fin 352) :
    (k0_pay19 (k0_pay16 x) (iota .tc S352x88 32 [0] iota_S352x88_d0_w32) (iota .tc S352x88 32 [1] iota_S352x88_d1_w32) 4#32 k0_pay17 k0_pay18 0#32) (ix4 (0 : Fin 1) (0 : Fin 1) i j)
      = Cert.Resize.enlarged 4 (by decide) (by decide) x i j :=
  (congrFun (piece7 x) _).trans
    (upsampled_apply 352 88 4 _ _ 4#32 (by decide) fd4 (fun p => by have := p.isLt; omega) _ _ _ _ x i j)

theorem piece8 (x : Vec Ideal S1x1x44x44 .f32) :
    k0_pay23 (k0_pay20 x) (iota .tc S352x44 32 [0] iota_S352x44_d0_w32) (iota .tc S352x44 32 [1] iota_S352x44_d1_w32) 8#32 k0_pay21 k0_pay22 (Scalar.subi (Scalar.extui (Scalar.cmpi .sgt 8#32 0#32)) (Scalar.extui (Scalar.cmpi .slt 8#32 0#32)))
      = upsampled 352 44 iota_S352x44_d0_w32 iota_S352x44_d1_w32 8#32 (some .fp32) (some .fp32)
          shapeCasts_S1x1x44x44_S44x44 shapeCasts_S352x352_S1x1x352x352 x := rfl

theorem chan8_apply (x : Vec Ideal S1x1x44x44 .f32) (i j : Fin 352) :
    (k0_pay23 (k0_pay20 x) (iota .tc S352x44 32 [0] iota_S352x44_d0_w32) (iota .tc S352x44 32 [1] iota_S352x44_d1_w32) 8#32 k0_pay21 k0_pay22 (Scalar.subi (Scalar.extui (Scalar.cmpi .sgt 8#32 0#32)) (Scalar.extui (Scalar.cmpi .slt 8#32 0#32)))) (ix4 (0 : Fin 1) (0 : Fin 1) i j)
      = Cert.Resize.enlarged 8 (by decide) (by decide) x i j :=
  (congrFun (piece8 x) _).trans
    (upsampled_apply 352 44 8 _ _ 8#32 (by decide) fd8 (fun p => by have := p.isLt; omega) _ _ _ _ x i j)

theorem piece9 (x : Vec Ideal S1x1x22x22 .f32) :
    k0_pay29 (k0_pay24 x) (iota .tc S352x22 32 [1] iota_S352x22_d1_w32) k0_pay25 k0_pay26 k0_pay27 k0_pay28
      = upsampled 352 22 iota_S352x22_d0_w32 iota_S352x22_d1_w32 16#32 (some .fp32) (some .fp32)
          shapeCasts_S1x1x22x22_S22x22 shapeCasts_S352x352_S1x1x352x352 x := rfl

theorem chan9_apply (x : Vec Ideal S1x1x22x22 .f32) (i j : Fin 352) :
    (k0_pay29 (k0_pay24 x) (iota .tc S352x22 32 [1] iota_S352x22_d1_w32) k0_pay25 k0_pay26 k0_pay27 k0_pay28) (ix4 (0 : Fin 1) (0 : Fin 1) i j)
      = Cert.Resize.enlarged 16 (by decide) (by decide) x i j :=
  (congrFun (piece9 x) _).trans
    (upsampled_apply 352 22 16 _ _ 16#32 (by decide) fd16 (fun p => by have := p.isLt; omega) _ _ _ _ x i j)

theorem piece10 (x : Vec Ideal S1x1x11x11 .f32) :
    k0_pay32 (k0_pay30 x) (iota .tc S352x11 32 [1] iota_S352x11_d1_w32) k0_pay31
      = upsampled 352 11 iota_S352x11_d0_w32 iota_S352x11_d1_w32 32#32 (some .fp32) (some .fp32)
          shapeCasts_S1x1x11x11_S11x11 shapeCasts_S352x352_S1x1x352x352 x := rfl

theorem chan10_apply (x : Vec Ideal S1x1x11x11 .f32) (i j : Fin 352) :
    (k0_pay32 (k0_pay30 x) (iota .tc S352x11 32 [1] iota_S352x11_d1_w32) k0_pay31) (ix4 (0 : Fin 1) (0 : Fin 1) i j)
      = Cert.Resize.enlarged 32 (by decide) (by decide) x i j :=
  (congrFun (piece10 x) _).trans
    (upsampled_apply 352 11 32 _ _ 32#32 (by decide) fd32 (fun p => by have := p.isLt; omega) _ _ _ _ x i j)

theorem piece11 (x : Vec Ideal S1x1x176x176 .f32) :
    k0_pay1 (k0_pay33 (F := Ideal)) (k0_pay34 x) (constant S352x352 .f32 0x00000000#32)
      = upsampled 352 176 iota_S352x176_d0_w32 iota_S352x176_d1_w32 2#32 (some .fp32) (some .fp32)
          shapeCasts_S1x1x176x176_S176x176 shapeCasts_S352x352_S1x1x352x352 x := rfl

theorem chan11_apply (x : Vec Ideal S1x1x176x176 .f32) (i j : Fin 352) :
    (k0_pay1 (k0_pay33 (F := Ideal)) (k0_pay34 x) (constant S352x352 .f32 0x00000000#32)) (ix4 (0 : Fin 1) (0 : Fin 1) i j)
      = Cert.Resize.enlarged 2 (by decide) (by decide) x i j :=
  (congrFun (piece11 x) _).trans
    (upsampled_apply 352 176 2 _ _ 2#32 (by decide) fd2 (fun p => by have := p.isLt; omega) _ _ _ _ x i j)

end Cert.KernelValue

end
-- ==== Proof.KernelCanon.lean ====
/-
  What the kernel body leaves in the output block, as one function of the twelve image blocks.

  The body stores twelve pieces, piece c through the rectangle that places local entry (0, 0, i, j) at (0, c, i, j)
  of the block.  The rectangles tile the block, and piece c at (0, 0, i, j) is channel c of the specification at
  (i, j); so the block is the specification's array.
-/
import proofs.«182170_j21698174779469_2_alg».proof.Proof.Gen.KernelIdeal.Frame
import proofs.«182170_j21698174779469_2_alg».proof.Proof.KernelPieces
import Idealize.ShloMosaic.Lib.Pipeline.Value

set_option maxRecDepth 16384

noncomputable section

namespace Cert.KernelValue

open Cert.KernelIdeal Cert.KernelIdeal.Gen Idealize.ShloMosaic Idealize.ShloMosaic.ValueIdx Cert.LibNearestResize

theorem hz4 : (![0, 0, 0, 0] : Fin 4 → Nat) = fun _ => 0 := funext fun a => by fin_cases a <;> rfl

/-- Channel c's store rectangle places local entry (0, 0, i, j) at (0, c, i, j). -/
theorem emb_chan (c : ℕ) (hc : c < 12)
    (inb : ∀ a, (![0, c, 0, 0] : Fin 4 → Nat) a + S1x1x352x352.size a ≤ S1x12x352x352.size a)
    (x : S1x1x352x352.Idx) :
    (Rect.unit (s := S1x12x352x352) ![0, c, 0, 0] S1x1x352x352.size inb).emb x
      = ix4 (0 : Fin 1) (⟨c, hc⟩ : Fin 12) (x 2 : Fin 352) (x 3 : Fin 352) := by
  funext a; apply Fin.ext
  match a with
  | ⟨0, _⟩ => show 0 + 1 * (x 0).val = 0; have h : (x 0).val < 1 := (x 0).isLt; omega
  | ⟨1, _⟩ => show c + 1 * (x 1).val = c; have h : (x 1).val < 1 := (x 1).isLt; omega
  | ⟨2, _⟩ => show 0 + 1 * (x 2).val = (x 2).val; omega
  | ⟨3, _⟩ => show 0 + 1 * (x 3).val = (x 3).val; omega

/-- Every index of a [1, 1, 352, 352] block is (0, 0, i, j). -/
theorem eq_lead2 (y : S1x1x352x352.Idx) : y = ix4 (0 : Fin 1) (0 : Fin 1) (y 2 : Fin 352) (y 3 : Fin 352) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-! ## Each stored piece, over the block it loads -/

theorem store0 (x : Vec Ideal S1x1x352x352 .f32) (y : S1x1x352x352.Idx) :
    (k0_pay2 (View.ld x r0_0)) y = x (ix4 (0 : Fin 1) (0 : Fin 1) (y 2 : Fin 352) (y 3 : Fin 352)) := by
  have e : View.ld x r0_0 = x := View.ld_unit_zero (S := S1x1x352x352) hz4 _ x
  rw [e]
  conv_lhs => rw [eq_lead2 y]
  exact chan0_apply x (y 2) (y 3)

theorem store1 (x : Vec Ideal S1x1x176x176 .f32) (y : S1x1x352x352.Idx) :
    (k0_pay5 (k0_pay3 (F := Ideal)) (k0_pay4 (View.ld x r0_2)) (constant S352x352 .f32 0x00000000#32)) y
      = Cert.Resize.enlarged 2 (by decide) (by decide) x (y 2 : Fin 352) (y 3 : Fin 352) := by
  have e : View.ld x r0_2 = x := View.ld_unit_zero (S := S1x1x176x176) hz4 _ x
  rw [e]
  conv_lhs => rw [eq_lead2 y]
  exact chan1_apply x (y 2) (y 3)

theorem store2 (x : Vec Ideal S1x1x88x88 .f32) (y : S1x1x352x352.Idx) :
    (k0_pay7 (k0_pay6 (View.ld x r0_4))) y
      = Cert.Resize.enlarged 4 (by decide) (by decide) x (y 2 : Fin 352) (y 3 : Fin 352) := by
  have e : View.ld x r0_4 = x := View.ld_unit_zero (S := S1x1x88x88) hz4 _ x
  rw [e]
  conv_lhs => rw [eq_lead2 y]
  exact chan2_apply x (y 2) (y 3)

theorem store3 (x : Vec Ideal S1x1x44x44 .f32) (y : S1x1x352x352.Idx) :
    (k0_pay8 (View.ld x r0_6)) y
      = Cert.Resize.enlarged 8 (by decide) (by decide) x (y 2 : Fin 352) (y 3 : Fin 352) := by
  have e : View.ld x r0_6 = x := View.ld_unit_zero (S := S1x1x44x44) hz4 _ x
  rw [e]
  conv_lhs => rw [eq_lead2 y]
  exact chan3_apply x (y 2) (y 3)

theorem store4 (x : Vec Ideal S1x1x22x22 .f32) (y : S1x1x352x352.Idx) :
    (k0_pay9 (View.ld x r0_8)) y
      = Cert.Resize.enlarged 16 (by decide) (by decide) x (y 2 : Fin 352) (y 3 : Fin 352) := by
  have e : View.ld x r0_8 = x := View.ld_unit_zero (S := S1x1x22x22) hz4 _ x
  rw [e]
  conv_lhs => rw [eq_lead2 y]
  exact chan4_apply x (y 2) (y 3)

theorem store5 (x : Vec Ideal S1x1x11x11 .f32) (y : S1x1x352x352.Idx) :
    (k0_pay11 (k0_pay10 (View.ld x r0_10)) (iota .tc S352x11 32 [0] iota_S352x11_d0_w32) (iota .tc S352x11 32 [1] iota_S352x11_d1_w32) 32#32) y
      = Cert.Resize.enlarged 32 (by decide) (by decide) x (y 2 : Fin 352) (y 3 : Fin 352) := by
  have e : View.ld x r0_10 = x := View.ld_unit_zero (S := S1x1x11x11) hz4 _ x
  rw [e]
  conv_lhs => rw [eq_lead2 y]
  exact chan5_apply x (y 2) (y 3)

theorem store6 (x : Vec Ideal S1x1x176x176 .f32) (y : S1x1x352x352.Idx) :
    (k0_pay15 (k0_pay12 (View.ld x r0_2)) (iota .tc S352x176 32 [0] iota_S352x176_d0_w32) (iota .tc S352x176 32 [1] iota_S352x176_d1_w32) 2#32 k0_pay13 k0_pay14) y
      = Cert.Resize.enlarged 2 (by decide) (by decide) x (y 2 : Fin 352) (y 3 : Fin 352) := by
  have e : View.ld x r0_2 = x := View.ld_unit_zero (S := S1x1x176x176) hz4 _ x
  rw [e]
  conv_lhs => rw [eq_lead2 y]
  exact chan6_apply x (y 2) (y 3)

theorem store7 (x : Vec Ideal S1x1x88x88 .f32) (y : S1x1x352x352.Idx) :
    (k0_pay19 (k0_pay16 (View.ld x r0_4)) (iota .tc S352x88 32 [0] iota_S352x88_d0_w32) (iota .tc S352x88 32 [1] iota_S352x88_d1_w32) 4#32 k0_pay17 k0_pay18 0#32) y
      = Cert.Resize.enlarged 4 (by decide) (by decide) x (y 2 : Fin 352) (y 3 : Fin 352) := by
  have e : View.ld x r0_4 = x := View.ld_unit_zero (S := S1x1x88x88) hz4 _ x
  rw [e]
  conv_lhs => rw [eq_lead2 y]
  exact chan7_apply x (y 2) (y 3)

theorem store8 (x : Vec Ideal S1x1x44x44 .f32) (y : S1x1x352x352.Idx) :
    (k0_pay23 (k0_pay20 (View.ld x r0_6)) (iota .tc S352x44 32 [0] iota_S352x44_d0_w32) (iota .tc S352x44 32 [1] iota_S352x44_d1_w32) 8#32 k0_pay21 k0_pay22 (Scalar.subi (Scalar.extui (Scalar.cmpi .sgt 8#32 0#32)) (Scalar.extui (Scalar.cmpi .slt 8#32 0#32)))) y
      = Cert.Resize.enlarged 8 (by decide) (by decide) x (y 2 : Fin 352) (y 3 : Fin 352) := by
  have e : View.ld x r0_6 = x := View.ld_unit_zero (S := S1x1x44x44) hz4 _ x
  rw [e]
  conv_lhs => rw [eq_lead2 y]
  exact chan8_apply x (y 2) (y 3)

theorem store9 (x : Vec Ideal S1x1x22x22 .f32) (y : S1x1x352x352.Idx) :
    (k0_pay29 (k0_pay24 (View.ld x r0_8)) (iota .tc S352x22 32 [1] iota_S352x22_d1_w32) k0_pay25 k0_pay26 k0_pay27 k0_pay28) y
      = Cert.Resize.enlarged 16 (by decide) (by decide) x (y 2 : Fin 352) (y 3 : Fin 352) := by
  have e : View.ld x r0_8 = x := View.ld_unit_zero (S := S1x1x22x22) hz4 _ x
  rw [e]
  conv_lhs => rw [eq_lead2 y]
  exact chan9_apply x (y 2) (y 3)

theorem store10 (x : Vec Ideal S1x1x11x11 .f32) (y : S1x1x352x352.Idx) :
    (k0_pay32 (k0_pay30 (View.ld x r0_10)) (iota .tc S352x11 32 [1] iota_S352x11_d1_w32) k0_pay31) y
      = Cert.Resize.enlarged 32 (by decide) (by decide) x (y 2 : Fin 352) (y 3 : Fin 352) := by
  have e : View.ld x r0_10 = x := View.ld_unit_zero (S := S1x1x11x11) hz4 _ x
  rw [e]
  conv_lhs => rw [eq_lead2 y]
  exact chan10_apply x (y 2) (y 3)

theorem store11 (x : Vec Ideal S1x1x176x176 .f32) (y : S1x1x352x352.Idx) :
    (k0_pay1 (k0_pay33 (F := Ideal)) (k0_pay34 (View.ld x r0_2)) (constant S352x352 .f32 0x00000000#32)) y
      = Cert.Resize.enlarged 2 (by decide) (by decide) x (y 2 : Fin 352) (y 3 : Fin 352) := by
  have e : View.ld x r0_2 = x := View.ld_unit_zero (S := S1x1x176x176) hz4 _ x
  rw [e]
  conv_lhs => rw [eq_lead2 y]
  exact chan11_apply x (y 2) (y 3)

/-! ## The block -/

/-- The body's result for the output block is the specification's array of the twelve loaded blocks. -/
theorem out_eq (x0 : Vec Ideal S1x1x352x352 .f32) (x1 : Vec Ideal S1x1x176x176 .f32) (x2 : Vec Ideal S1x1x88x88 .f32) (x3 : Vec Ideal S1x1x44x44 .f32) (x4 : Vec Ideal S1x1x22x22 .f32) (x5 : Vec Ideal S1x1x11x11 .f32) (x6 : Vec Ideal S1x1x176x176 .f32) (x7 : Vec Ideal S1x1x88x88 .f32) (x8 : Vec Ideal S1x1x44x44 .f32) (x9 : Vec Ideal S1x1x22x22 .f32) (x10 : Vec Ideal S1x1x11x11 .f32) (x11 : Vec Ideal S1x1x176x176 .f32) :
    out0_12 (F := Ideal) x0 x1 x2 x3 x4 x5 x6 x7 x8 x9 x10 x11 = Cert.Resize.G x0 x1 x2 x3 x4 x5 x6 x7 x8 x9 x10 x11 := by
  funext y
  unfold out0_12
  refine View.canon_apply_of_pieces (Val := Elt Ideal) (S := S1x12x352x352) (e := .f32) (Cert.Resize.G x0 x1 x2 x3 x4 x5 x6 x7 x8 x9 x10 x11) _ ?_ y (cover0_12 _ _ _ _ _ _ _ _ _ _ _ _ y)
  intro p hp
  rcases List.mem_cons.mp hp with rfl | hp
  · intro x'
    show _ = Cert.Resize.G x0 x1 x2 x3 x4 x5 x6 x7 x8 x9 x10 x11 (r0_17.emb x')
    rw [emb_chan 11 (by decide) _ x']
    exact store11 x11 x'
  rcases List.mem_cons.mp hp with rfl | hp
  · intro x'
    show _ = Cert.Resize.G x0 x1 x2 x3 x4 x5 x6 x7 x8 x9 x10 x11 (r0_16.emb x')
    rw [emb_chan 10 (by decide) _ x']
    exact store10 x10 x'
  rcases List.mem_cons.mp hp with rfl | hp
  · intro x'
    show _ = Cert.Resize.G x0 x1 x2 x3 x4 x5 x6 x7 x8 x9 x10 x11 (r0_15.emb x')
    rw [emb_chan 9 (by decide) _ x']
    exact store9 x9 x'
  rcases List.mem_cons.mp hp with rfl | hp
  · intro x'
    show _ = Cert.Resize.G x0 x1 x2 x3 x4 x5 x6 x7 x8 x9 x10 x11 (r0_14.emb x')
    rw [emb_chan 8 (by decide) _ x']
    exact store8 x8 x'
  rcases List.mem_cons.mp hp with rfl | hp
  · intro x'
    show _ = Cert.Resize.G x0 x1 x2 x3 x4 x5 x6 x7 x8 x9 x10 x11 (r0_13.emb x')
    rw [emb_chan 7 (by decide) _ x']
    exact store7 x7 x'
  rcases List.mem_cons.mp hp with rfl | hp
  · intro x'
    show _ = Cert.Resize.G x0 x1 x2 x3 x4 x5 x6 x7 x8 x9 x10 x11 (r0_12.emb x')
    rw [emb_chan 6 (by decide) _ x']
    exact store6 x6 x'
  rcases List.mem_cons.mp hp with rfl | hp
  · intro x'
    show _ = Cert.Resize.G x0 x1 x2 x3 x4 x5 x6 x7 x8 x9 x10 x11 (r0_11.emb x')
    rw [emb_chan 5 (by decide) _ x']
    exact store5 x5 x'
  rcases List.mem_cons.mp hp with rfl | hp
  · intro x'
    show _ = Cert.Resize.G x0 x1 x2 x3 x4 x5 x6 x7 x8 x9 x10 x11 (r0_9.emb x')
    rw [emb_chan 4 (by decide) _ x']
    exact store4 x4 x'
  rcases List.mem_cons.mp hp with rfl | hp
  · intro x'
    show _ = Cert.Resize.G x0 x1 x2 x3 x4 x5 x6 x7 x8 x9 x10 x11 (r0_7.emb x')
    rw [emb_chan 3 (by decide) _ x']
    exact store3 x3 x'
  rcases List.mem_cons.mp hp with rfl | hp
  · intro x'
    show _ = Cert.Resize.G x0 x1 x2 x3 x4 x5 x6 x7 x8 x9 x10 x11 (r0_5.emb x')
    rw [emb_chan 2 (by decide) _ x']
    exact store2 x2 x'
  rcases List.mem_cons.mp hp with rfl | hp
  · intro x'
    show _ = Cert.Resize.G x0 x1 x2 x3 x4 x5 x6 x7 x8 x9 x10 x11 (r0_3.emb x')
    rw [emb_chan 1 (by decide) _ x']
    exact store1 x1 x'
  rcases List.mem_cons.mp hp with rfl | hp
  · intro x'
    show _ = Cert.Resize.G x0 x1 x2 x3 x4 x5 x6 x7 x8 x9 x10 x11 (r0_1.emb x')
    rw [emb_chan 0 (by decide) _ x']
    exact store0 x0 x'
  exact absurd hp List.not_mem_nil

end Cert.KernelValue

end
-- ==== Proof.KernelRun.lean ====
/-
  The kernel's run, read: after it the result array is the specification's array of the twelve argument arrays.

  The grid has one point and every window's block is its whole array (block index zero on every axis), so a block
  read off an array is the array, what the one point writes back is the whole result, and it covers the result array.
-/
import proofs.«182170_j21698174779469_2_alg».proof.Proof.Gen.KernelIdeal.Value
import proofs.«182170_j21698174779469_2_alg».proof.Proof.KernelCanon
import Idealize.ShloMosaic.Lib.Pipeline.Value

set_option maxRecDepth 16384

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every window's block index is zero on every axis, at the grid's one point. -/
theorem idx_zero : ∀ t : Fin cfg0.N,
    (∀ a : Fin 4, win0_0.index t a = 0)
    ∧ (∀ a : Fin 4, win0_1.index t a = 0)
    ∧ (∀ a : Fin 4, win0_2.index t a = 0)
    ∧ (∀ a : Fin 4, win0_3.index t a = 0)
    ∧ (∀ a : Fin 4, win0_4.index t a = 0)
    ∧ (∀ a : Fin 4, win0_5.index t a = 0)
    ∧ (∀ a : Fin 4, win0_6.index t a = 0)
    ∧ (∀ a : Fin 4, win0_7.index t a = 0)
    ∧ (∀ a : Fin 4, win0_8.index t a = 0)
    ∧ (∀ a : Fin 4, win0_9.index t a = 0)
    ∧ (∀ a : Fin 4, win0_10.index t a = 0)
    ∧ (∀ a : Fin 4, win0_11.index t a = 0)
    ∧ (∀ a : Fin 4, win0_12.index t a = 0) :=
  (by decide +kernel : ∀ t : Fin grid0.N, _)

/-- Window 0's block is its whole array. -/
theorem iblk0 (c : Dev nD) (t : Fin cfg0.N) : iblk m c 0 t = V m c main_arg0 := by
  funext j
  show V m c main_arg0 (((cfg0.win 0).blk t).view.emb j) = V m c main_arg0 j
  have hz := (idx_zero t).1
  refine congrArg (V m c main_arg0) ?_
  funext a; apply Fin.ext
  match a with
  | ⟨0, _⟩ => show win0_0.index t (0 : Fin 4) * 1 + 1 * (j 0).val = (j 0).val; rw [hz 0]; omega
  | ⟨1, _⟩ => show win0_0.index t (1 : Fin 4) * 1 + 1 * (j 1).val = (j 1).val; rw [hz 1]; omega
  | ⟨2, _⟩ => show win0_0.index t (2 : Fin 4) * 352 + 1 * (j 2).val = (j 2).val; rw [hz 2]; omega
  | ⟨3, _⟩ => show win0_0.index t (3 : Fin 4) * 352 + 1 * (j 3).val = (j 3).val; rw [hz 3]; omega

/-- Window 1's block is its whole array. -/
theorem iblk1 (c : Dev nD) (t : Fin cfg0.N) : iblk m c 1 t = V m c main_arg1 := by
  funext j
  show V m c main_arg1 (((cfg0.win 1).blk t).view.emb j) = V m c main_arg1 j
  have hz := (idx_zero t).2.1
  refine congrArg (V m c main_arg1) ?_
  funext a; apply Fin.ext
  match a with
  | ⟨0, _⟩ => show win0_1.index t (0 : Fin 4) * 1 + 1 * (j 0).val = (j 0).val; rw [hz 0]; omega
  | ⟨1, _⟩ => show win0_1.index t (1 : Fin 4) * 1 + 1 * (j 1).val = (j 1).val; rw [hz 1]; omega
  | ⟨2, _⟩ => show win0_1.index t (2 : Fin 4) * 176 + 1 * (j 2).val = (j 2).val; rw [hz 2]; omega
  | ⟨3, _⟩ => show win0_1.index t (3 : Fin 4) * 176 + 1 * (j 3).val = (j 3).val; rw [hz 3]; omega

/-- Window 2's block is its whole array. -/
theorem iblk2 (c : Dev nD) (t : Fin cfg0.N) : iblk m c 2 t = V m c main_arg2 := by
  funext j
  show V m c main_arg2 (((cfg0.win 2).blk t).view.emb j) = V m c main_arg2 j
  have hz := (idx_zero t).2.2.1
  refine congrArg (V m c main_arg2) ?_
  funext a; apply Fin.ext
  match a with
  | ⟨0, _⟩ => show win0_2.index t (0 : Fin 4) * 1 + 1 * (j 0).val = (j 0).val; rw [hz 0]; omega
  | ⟨1, _⟩ => show win0_2.index t (1 : Fin 4) * 1 + 1 * (j 1).val = (j 1).val; rw [hz 1]; omega
  | ⟨2, _⟩ => show win0_2.index t (2 : Fin 4) * 88 + 1 * (j 2).val = (j 2).val; rw [hz 2]; omega
  | ⟨3, _⟩ => show win0_2.index t (3 : Fin 4) * 88 + 1 * (j 3).val = (j 3).val; rw [hz 3]; omega

/-- Window 3's block is its whole array. -/
theorem iblk3 (c : Dev nD) (t : Fin cfg0.N) : iblk m c 3 t = V m c main_arg3 := by
  funext j
  show V m c main_arg3 (((cfg0.win 3).blk t).view.emb j) = V m c main_arg3 j
  have hz := (idx_zero t).2.2.2.1
  refine congrArg (V m c main_arg3) ?_
  funext a; apply Fin.ext
  match a with
  | ⟨0, _⟩ => show win0_3.index t (0 : Fin 4) * 1 + 1 * (j 0).val = (j 0).val; rw [hz 0]; omega
  | ⟨1, _⟩ => show win0_3.index t (1 : Fin 4) * 1 + 1 * (j 1).val = (j 1).val; rw [hz 1]; omega
  | ⟨2, _⟩ => show win0_3.index t (2 : Fin 4) * 44 + 1 * (j 2).val = (j 2).val; rw [hz 2]; omega
  | ⟨3, _⟩ => show win0_3.index t (3 : Fin 4) * 44 + 1 * (j 3).val = (j 3).val; rw [hz 3]; omega

/-- Window 4's block is its whole array. -/
theorem iblk4 (c : Dev nD) (t : Fin cfg0.N) : iblk m c 4 t = V m c main_arg4 := by
  funext j
  show V m c main_arg4 (((cfg0.win 4).blk t).view.emb j) = V m c main_arg4 j
  have hz := (idx_zero t).2.2.2.2.1
  refine congrArg (V m c main_arg4) ?_
  funext a; apply Fin.ext
  match a with
  | ⟨0, _⟩ => show win0_4.index t (0 : Fin 4) * 1 + 1 * (j 0).val = (j 0).val; rw [hz 0]; omega
  | ⟨1, _⟩ => show win0_4.index t (1 : Fin 4) * 1 + 1 * (j 1).val = (j 1).val; rw [hz 1]; omega
  | ⟨2, _⟩ => show win0_4.index t (2 : Fin 4) * 22 + 1 * (j 2).val = (j 2).val; rw [hz 2]; omega
  | ⟨3, _⟩ => show win0_4.index t (3 : Fin 4) * 22 + 1 * (j 3).val = (j 3).val; rw [hz 3]; omega

/-- Window 5's block is its whole array. -/
theorem iblk5 (c : Dev nD) (t : Fin cfg0.N) : iblk m c 5 t = V m c main_arg5 := by
  funext j
  show V m c main_arg5 (((cfg0.win 5).blk t).view.emb j) = V m c main_arg5 j
  have hz := (idx_zero t).2.2.2.2.2.1
  refine congrArg (V m c main_arg5) ?_
  funext a; apply Fin.ext
  match a with
  | ⟨0, _⟩ => show win0_5.index t (0 : Fin 4) * 1 + 1 * (j 0).val = (j 0).val; rw [hz 0]; omega
  | ⟨1, _⟩ => show win0_5.index t (1 : Fin 4) * 1 + 1 * (j 1).val = (j 1).val; rw [hz 1]; omega
  | ⟨2, _⟩ => show win0_5.index t (2 : Fin 4) * 11 + 1 * (j 2).val = (j 2).val; rw [hz 2]; omega
  | ⟨3, _⟩ => show win0_5.index t (3 : Fin 4) * 11 + 1 * (j 3).val = (j 3).val; rw [hz 3]; omega

/-- Window 6's block is its whole array. -/
theorem iblk6 (c : Dev nD) (t : Fin cfg0.N) : iblk m c 6 t = V m c main_arg6 := by
  funext j
  show V m c main_arg6 (((cfg0.win 6).blk t).view.emb j) = V m c main_arg6 j
  have hz := (idx_zero t).2.2.2.2.2.2.1
  refine congrArg (V m c main_arg6) ?_
  funext a; apply Fin.ext
  match a with
  | ⟨0, _⟩ => show win0_6.index t (0 : Fin 4) * 1 + 1 * (j 0).val = (j 0).val; rw [hz 0]; omega
  | ⟨1, _⟩ => show win0_6.index t (1 : Fin 4) * 1 + 1 * (j 1).val = (j 1).val; rw [hz 1]; omega
  | ⟨2, _⟩ => show win0_6.index t (2 : Fin 4) * 176 + 1 * (j 2).val = (j 2).val; rw [hz 2]; omega
  | ⟨3, _⟩ => show win0_6.index t (3 : Fin 4) * 176 + 1 * (j 3).val = (j 3).val; rw [hz 3]; omega

/-- Window 7's block is its whole array. -/
theorem iblk7 (c : Dev nD) (t : Fin cfg0.N) : iblk m c 7 t = V m c main_arg7 := by
  funext j
  show V m c main_arg7 (((cfg0.win 7).blk t).view.emb j) = V m c main_arg7 j
  have hz := (idx_zero t).2.2.2.2.2.2.2.1
  refine congrArg (V m c main_arg7) ?_
  funext a; apply Fin.ext
  match a with
  | ⟨0, _⟩ => show win0_7.index t (0 : Fin 4) * 1 + 1 * (j 0).val = (j 0).val; rw [hz 0]; omega
  | ⟨1, _⟩ => show win0_7.index t (1 : Fin 4) * 1 + 1 * (j 1).val = (j 1).val; rw [hz 1]; omega
  | ⟨2, _⟩ => show win0_7.index t (2 : Fin 4) * 88 + 1 * (j 2).val = (j 2).val; rw [hz 2]; omega
  | ⟨3, _⟩ => show win0_7.index t (3 : Fin 4) * 88 + 1 * (j 3).val = (j 3).val; rw [hz 3]; omega

/-- Window 8's block is its whole array. -/
theorem iblk8 (c : Dev nD) (t : Fin cfg0.N) : iblk m c 8 t = V m c main_arg8 := by
  funext j
  show V m c main_arg8 (((cfg0.win 8).blk t).view.emb j) = V m c main_arg8 j
  have hz := (idx_zero t).2.2.2.2.2.2.2.2.1
  refine congrArg (V m c main_arg8) ?_
  funext a; apply Fin.ext
  match a with
  | ⟨0, _⟩ => show win0_8.index t (0 : Fin 4) * 1 + 1 * (j 0).val = (j 0).val; rw [hz 0]; omega
  | ⟨1, _⟩ => show win0_8.index t (1 : Fin 4) * 1 + 1 * (j 1).val = (j 1).val; rw [hz 1]; omega
  | ⟨2, _⟩ => show win0_8.index t (2 : Fin 4) * 44 + 1 * (j 2).val = (j 2).val; rw [hz 2]; omega
  | ⟨3, _⟩ => show win0_8.index t (3 : Fin 4) * 44 + 1 * (j 3).val = (j 3).val; rw [hz 3]; omega

/-- Window 9's block is its whole array. -/
theorem iblk9 (c : Dev nD) (t : Fin cfg0.N) : iblk m c 9 t = V m c main_arg9 := by
  funext j
  show V m c main_arg9 (((cfg0.win 9).blk t).view.emb j) = V m c main_arg9 j
  have hz := (idx_zero t).2.2.2.2.2.2.2.2.2.1
  refine congrArg (V m c main_arg9) ?_
  funext a; apply Fin.ext
  match a with
  | ⟨0, _⟩ => show win0_9.index t (0 : Fin 4) * 1 + 1 * (j 0).val = (j 0).val; rw [hz 0]; omega
  | ⟨1, _⟩ => show win0_9.index t (1 : Fin 4) * 1 + 1 * (j 1).val = (j 1).val; rw [hz 1]; omega
  | ⟨2, _⟩ => show win0_9.index t (2 : Fin 4) * 22 + 1 * (j 2).val = (j 2).val; rw [hz 2]; omega
  | ⟨3, _⟩ => show win0_9.index t (3 : Fin 4) * 22 + 1 * (j 3).val = (j 3).val; rw [hz 3]; omega

/-- Window 10's block is its whole array. -/
theorem iblk10 (c : Dev nD) (t : Fin cfg0.N) : iblk m c 10 t = V m c main_arg10 := by
  funext j
  show V m c main_arg10 (((cfg0.win 10).blk t).view.emb j) = V m c main_arg10 j
  have hz := (idx_zero t).2.2.2.2.2.2.2.2.2.2.1
  refine congrArg (V m c main_arg10) ?_
  funext a; apply Fin.ext
  match a with
  | ⟨0, _⟩ => show win0_10.index t (0 : Fin 4) * 1 + 1 * (j 0).val = (j 0).val; rw [hz 0]; omega
  | ⟨1, _⟩ => show win0_10.index t (1 : Fin 4) * 1 + 1 * (j 1).val = (j 1).val; rw [hz 1]; omega
  | ⟨2, _⟩ => show win0_10.index t (2 : Fin 4) * 11 + 1 * (j 2).val = (j 2).val; rw [hz 2]; omega
  | ⟨3, _⟩ => show win0_10.index t (3 : Fin 4) * 11 + 1 * (j 3).val = (j 3).val; rw [hz 3]; omega

/-- Window 11's block is its whole array. -/
theorem iblk11 (c : Dev nD) (t : Fin cfg0.N) : iblk m c 11 t = V m c main_arg11 := by
  funext j
  show V m c main_arg11 (((cfg0.win 11).blk t).view.emb j) = V m c main_arg11 j
  have hz := (idx_zero t).2.2.2.2.2.2.2.2.2.2.2.1
  refine congrArg (V m c main_arg11) ?_
  funext a; apply Fin.ext
  match a with
  | ⟨0, _⟩ => show win0_11.index t (0 : Fin 4) * 1 + 1 * (j 0).val = (j 0).val; rw [hz 0]; omega
  | ⟨1, _⟩ => show win0_11.index t (1 : Fin 4) * 1 + 1 * (j 1).val = (j 1).val; rw [hz 1]; omega
  | ⟨2, _⟩ => show win0_11.index t (2 : Fin 4) * 176 + 1 * (j 2).val = (j 2).val; rw [hz 2]; omega
  | ⟨3, _⟩ => show win0_11.index t (3 : Fin 4) * 176 + 1 * (j 3).val = (j 3).val; rw [hz 3]; omega

/-- The output window's block places its index at itself. -/
theorem emb12 (t : Fin cfg0.N) (j : S1x12x352x352.Idx) : ((cfg0.win 12).blk t).view.emb j = j := by
  have hz := (idx_zero t).2.2.2.2.2.2.2.2.2.2.2.2
  funext a; apply Fin.ext
  match a with
  | ⟨0, _⟩ => show win0_12.index t (0 : Fin 4) * 1 + 1 * (j 0).val = (j 0).val; rw [hz 0]; omega
  | ⟨1, _⟩ => show win0_12.index t (1 : Fin 4) * 12 + 1 * (j 1).val = (j 1).val; rw [hz 1]; omega
  | ⟨2, _⟩ => show win0_12.index t (2 : Fin 4) * 352 + 1 * (j 2).val = (j 2).val; rw [hz 2]; omega
  | ⟨3, _⟩ => show win0_12.index t (3 : Fin 4) * 352 + 1 * (j 3).val = (j 3).val; rw [hz 3]; omega

/-- What the point writes back is the block of the specification's array of the argument arrays. -/
theorem flushed_eq (c : Dev nD) (t : Fin cfg0.N) :
    (dats m 0 c).flushed 12 t
      = ((cfg0.win 12).blk t).view.read (Elt Ideal) (Cert.Resize.G (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  rw [Cert.KernelIdeal.Value.flushed12]
  funext j
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j
    = Cert.Resize.G (V m c main_arg0) (V m c main_arg1) (V m c main_arg2) (V m c main_arg3) (V m c main_arg4) (V m c main_arg5) (V m c main_arg6) (V m c main_arg7) (V m c main_arg8) (V m c main_arg9) (V m c main_arg10) (V m c main_arg11) (((cfg0.win 12).blk t).view.emb j)
  rw [emb12 t j]
  refine (congrFun (out_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) j).trans ?_
  rw [iblk0 m c t, iblk1 m c t, iblk2 m c t, iblk3 m c t, iblk4 m c t, iblk5 m c t, iblk6 m c t, iblk7 m c t, iblk8 m c t, iblk9 m c t, iblk10 m c t, iblk11 m c t]

/-- Every index of the result array is in the one point's block. -/
theorem mem_blk (t : Fin cfg0.N) (i : S1x12x352x352.Idx) : i ∈ ((cfg0.win 12).blk t).view.set := by
  have hz := (idx_zero t).2.2.2.2.2.2.2.2.2.2.2.2
  show i ∈ ((View.whole main_v0).slice (win0_12.rect t)).set
  rw [View.set_slice_whole, Rect.mem_set_unit]
  intro a
  match a with
  | ⟨0, _⟩ => show win0_12.index t (0 : Fin 4) * 1 ≤ (i 0).val ∧ (i 0).val < win0_12.index t (0 : Fin 4) * 1 + 1; rw [hz 0]; have h : (i 0).val < 1 := (i 0).isLt; omega
  | ⟨1, _⟩ => show win0_12.index t (1 : Fin 4) * 12 ≤ (i 1).val ∧ (i 1).val < win0_12.index t (1 : Fin 4) * 12 + 12; rw [hz 1]; have h : (i 1).val < 12 := (i 1).isLt; omega
  | ⟨2, _⟩ => show win0_12.index t (2 : Fin 4) * 352 ≤ (i 2).val ∧ (i 2).val < win0_12.index t (2 : Fin 4) * 352 + 352; rw [hz 2]; have h : (i 2).val < 352 := (i 2).isLt; omega
  | ⟨3, _⟩ => show win0_12.index t (3 : Fin 4) * 352 ≤ (i 3).val ∧ (i 3).val < win0_12.index t (3 : Fin 4) * 352 + 352; rw [hz 3]; have h : (i 3).val < 352 := (i 3).isLt; omega

/-- The result array after the run. -/
theorem final (c : Dev nD) :
    (dats m 0 c).arrAt 12 cfg0.N = Cert.Resize.G (V m c main_arg0) (V m c main_arg1) (V m c main_arg2) (V m c main_arg3) (V m c main_arg4) (V m c main_arg5) (V m c main_arg6) (V m c main_arg7) (V m c main_arg8) (V m c main_arg9) (V m c main_arg10) (V m c main_arg11) :=
  (dats m 0 c).arrAt_eq_of_cover 12 _ (fun t _ => flushed_eq m c t)
    (fun i => ⟨⟨0, by decide⟩, flush0_12 _, mem_blk _ i⟩)

/-- The run: it terminates without fault, the result array is the specification's array of the arguments, and the
    arguments are unchanged. -/
theorem run : θ_run defs (onTc (τ := τ) (main (F := Ideal))) ⟨m, fun _ => 0, ρ⟩ fun r => ∀ c : Dev nD,
      r.2.mem ((c : Thread nD τ).loc main_v0) = Cert.Resize.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩)
    (Cert.KernelIdeal.Value.run_blocks m ρ)

end Cert.KernelValue

end
-- ==== Proof.RefValue.lean ====
/-
  The reference program's result, as a function of its twelve argument images, is the stack of enlarged images:
  entry (0, c, i, j) of the result is entry (i / n, j / n) of image c, where n is 352 over the image's side.
-/
import proofs.«182170_j21698174779469_2_alg».proof.Proof.Gen.ReferenceIdeal.Read
import proofs.«182170_j21698174779469_2_alg».proof.Proof.Spec
import Idealize.ShloMosaic.Lib.ValueIdx
import Idealize.ShloMosaic.Lib.Pipeline.Value
import Idealize.ShloMosaic.Lib.KernelVsHost

noncomputable section

namespace Cert.RefValue

open Idealize.ShloMosaic Idealize.ShloMosaic.ValueIdx Cert.ReferenceIdeal Cert.ReferenceIdeal.Read Cert.Resize

/-! ## A pad that pads nothing -/

/-- A pad with no low, high or interior padding, read at an index, is its operand there: on every axis the index's
    coordinate is `0 + coordinate * (0 + 1)`, so every index is inside the operand. -/
theorem pad_zero_apply (x : S1x1x352x352.Idx → EReal) {u : Shape} (v : u.Idx → EReal)
    (h : S1x1x352x352.Pads (![0, 0, 0, 0] : Fin 4 → Nat) ![0, 0, 0, 0] ![0, 0, 0, 0] S1x1x352x352) (hu : 0 < u.numel)
    (y : S1x1x352x352.Idx) :
    pad S1x1x352x352 ![0, 0, 0, 0] ![0, 0, 0, 0] ![0, 0, 0, 0] x v h hu y = x y := by
  refine pad_apply_of_inside _ _ _ x v h hu y y (fun a => ?_)
  match a with
  | ⟨0, _⟩ => show (y 0).val = 0 + (y 0).val * (0 + 1); omega
  | ⟨1, _⟩ => show (y 1).val = 0 + (y 1).val * (0 + 1); omega
  | ⟨2, _⟩ => show (y 2).val = 0 + (y 2).val * (0 + 1); omega
  | ⟨3, _⟩ => show (y 3).val = 0 + (y 3).val * (0 + 1); omega

/-! ## One image enlarged

  Image `k` of side `h` goes through four layout steps: repeat along a new axis after the rows ([1,1,h,h] to
  [1,1,h,n,h]), merge that axis into the rows ([1,1,352,h]), repeat along a new last axis ([1,1,352,h,n]), merge it into
  the columns ([1,1,352,352]).  Reading the result at `(0, 0, i, j)` and following the four index maps back: the
  flat position `i * 352 + j` of the last reshape splits as row `i`, column `j / n`, copy `j % n`; the second
  broadcast drops the copy; the flat position `i * h + j / n` of the first reshape splits as row `i / n`, copy
  `i % n`, column `j / n`; the first broadcast drops the copy.  So the entry is the image's `(i / n, j / n)`. -/

/-- Image 1 (side 176, factor 2) after its four layout steps, at `(0, 0, i, j)`, is its entry `(i / 2, j / 2)`. -/
theorem chain_1 (x : FVec Ideal S1x1x176x176 .f32) (i j : Fin 352) :
    val_main_v3 (F := Ideal) x (ix4 0 0 i j) = enlarged 2 (by decide) (by decide) x i j := by
  rw [val_main_v3_apply, val_main_v2_apply, val_main_v1_apply, val_main_v0_apply]
  unfold enlarged
  refine congrArg x (funext fun a => Fin.ext ?_)
  have hi := i.isLt
  have hj := j.isLt
  -- the four coordinates of the index (0, 0, i, j), as numbers for the arithmetic below
  have e0 : (ix4 (0 : Fin 1) (0 : Fin 1) i j 0).val = 0 := rfl
  have e1 : (ix4 (0 : Fin 1) (0 : Fin 1) i j 1).val = 0 := rfl
  have e2 : (ix4 (0 : Fin 1) (0 : Fin 1) i j 2).val = i.val := rfl
  have e3 : (ix4 (0 : Fin 1) (0 : Fin 1) i j 3).val = j.val := rfl
  match a with
  | ⟨0, _⟩ => rfl
  | ⟨1, _⟩ => rfl
  | ⟨2, _⟩ => dsimp only [srcCoord]; omega
  | ⟨3, _⟩ => dsimp only [srcCoord]; omega

/-- The same after the pad that pads nothing. -/
theorem padded_1 (x : FVec Ideal S1x1x176x176 .f32) (i j : Fin 352) :
    val_main_v4 (F := Ideal) x (ix4 0 0 i j) = enlarged 2 (by decide) (by decide) x i j := by
  unfold val_main_v4
  rw [pad_zero_apply]
  exact chain_1 x i j

/-- Image 2 (side 88, factor 4) after its four layout steps, at `(0, 0, i, j)`, is its entry `(i / 4, j / 4)`. -/
theorem chain_2 (x : FVec Ideal S1x1x88x88 .f32) (i j : Fin 352) :
    val_main_v8 (F := Ideal) x (ix4 0 0 i j) = enlarged 4 (by decide) (by decide) x i j := by
  rw [val_main_v8_apply, val_main_v7_apply, val_main_v6_apply, val_main_v5_apply]
  unfold enlarged
  refine congrArg x (funext fun a => Fin.ext ?_)
  have hi := i.isLt
  have hj := j.isLt
  -- the four coordinates of the index (0, 0, i, j), as numbers for the arithmetic below
  have e0 : (ix4 (0 : Fin 1) (0 : Fin 1) i j 0).val = 0 := rfl
  have e1 : (ix4 (0 : Fin 1) (0 : Fin 1) i j 1).val = 0 := rfl
  have e2 : (ix4 (0 : Fin 1) (0 : Fin 1) i j 2).val = i.val := rfl
  have e3 : (ix4 (0 : Fin 1) (0 : Fin 1) i j 3).val = j.val := rfl
  match a with
  | ⟨0, _⟩ => rfl
  | ⟨1, _⟩ => rfl
  | ⟨2, _⟩ => dsimp only [srcCoord]; omega
  | ⟨3, _⟩ => dsimp only [srcCoord]; omega

/-- The same after the pad that pads nothing. -/
theorem padded_2 (x : FVec Ideal S1x1x88x88 .f32) (i j : Fin 352) :
    val_main_v9 (F := Ideal) x (ix4 0 0 i j) = enlarged 4 (by decide) (by decide) x i j := by
  unfold val_main_v9
  rw [pad_zero_apply]
  exact chain_2 x i j

/-- Image 3 (side 44, factor 8) after its four layout steps, at `(0, 0, i, j)`, is its entry `(i / 8, j / 8)`. -/
theorem chain_3 (x : FVec Ideal S1x1x44x44 .f32) (i j : Fin 352) :
    val_main_v13 (F := Ideal) x (ix4 0 0 i j) = enlarged 8 (by decide) (by decide) x i j := by
  rw [val_main_v13_apply, val_main_v12_apply, val_main_v11_apply, val_main_v10_apply]
  unfold enlarged
  refine congrArg x (funext fun a => Fin.ext ?_)
  have hi := i.isLt
  have hj := j.isLt
  -- the four coordinates of the index (0, 0, i, j), as numbers for the arithmetic below
  have e0 : (ix4 (0 : Fin 1) (0 : Fin 1) i j 0).val = 0 := rfl
  have e1 : (ix4 (0 : Fin 1) (0 : Fin 1) i j 1).val = 0 := rfl
  have e2 : (ix4 (0 : Fin 1) (0 : Fin 1) i j 2).val = i.val := rfl
  have e3 : (ix4 (0 : Fin 1) (0 : Fin 1) i j 3).val = j.val := rfl
  match a with
  | ⟨0, _⟩ => rfl
  | ⟨1, _⟩ => rfl
  | ⟨2, _⟩ => dsimp only [srcCoord]; omega
  | ⟨3, _⟩ => dsimp only [srcCoord]; omega

/-- The same after the pad that pads nothing. -/
theorem padded_3 (x : FVec Ideal S1x1x44x44 .f32) (i j : Fin 352) :
    val_main_v14 (F := Ideal) x (ix4 0 0 i j) = enlarged 8 (by decide) (by decide) x i j := by
  unfold val_main_v14
  rw [pad_zero_apply]
  exact chain_3 x i j

/-- Image 4 (side 22, factor 16) after its four layout steps, at `(0, 0, i, j)`, is its entry `(i / 16, j / 16)`. -/
theorem chain_4 (x : FVec Ideal S1x1x22x22 .f32) (i j : Fin 352) :
    val_main_v18 (F := Ideal) x (ix4 0 0 i j) = enlarged 16 (by decide) (by decide) x i j := by
  rw [val_main_v18_apply, val_main_v17_apply, val_main_v16_apply, val_main_v15_apply]
  unfold enlarged
  refine congrArg x (funext fun a => Fin.ext ?_)
  have hi := i.isLt
  have hj := j.isLt
  -- the four coordinates of the index (0, 0, i, j), as numbers for the arithmetic below
  have e0 : (ix4 (0 : Fin 1) (0 : Fin 1) i j 0).val = 0 := rfl
  have e1 : (ix4 (0 : Fin 1) (0 : Fin 1) i j 1).val = 0 := rfl
  have e2 : (ix4 (0 : Fin 1) (0 : Fin 1) i j 2).val = i.val := rfl
  have e3 : (ix4 (0 : Fin 1) (0 : Fin 1) i j 3).val = j.val := rfl
  match a with
  | ⟨0, _⟩ => rfl
  | ⟨1, _⟩ => rfl
  | ⟨2, _⟩ => dsimp only [srcCoord]; omega
  | ⟨3, _⟩ => dsimp only [srcCoord]; omega

/-- The same after the pad that pads nothing. -/
theorem padded_4 (x : FVec Ideal S1x1x22x22 .f32) (i j : Fin 352) :
    val_main_v19 (F := Ideal) x (ix4 0 0 i j) = enlarged 16 (by decide) (by decide) x i j := by
  unfold val_main_v19
  rw [pad_zero_apply]
  exact chain_4 x i j

/-- Image 5 (side 11, factor 32) after its four layout steps, at `(0, 0, i, j)`, is its entry `(i / 32, j / 32)`. -/
theorem chain_5 (x : FVec Ideal S1x1x11x11 .f32) (i j : Fin 352) :
    val_main_v23 (F := Ideal) x (ix4 0 0 i j) = enlarged 32 (by decide) (by decide) x i j := by
  rw [val_main_v23_apply, val_main_v22_apply, val_main_v21_apply, val_main_v20_apply]
  unfold enlarged
  refine congrArg x (funext fun a => Fin.ext ?_)
  have hi := i.isLt
  have hj := j.isLt
  -- the four coordinates of the index (0, 0, i, j), as numbers for the arithmetic below
  have e0 : (ix4 (0 : Fin 1) (0 : Fin 1) i j 0).val = 0 := rfl
  have e1 : (ix4 (0 : Fin 1) (0 : Fin 1) i j 1).val = 0 := rfl
  have e2 : (ix4 (0 : Fin 1) (0 : Fin 1) i j 2).val = i.val := rfl
  have e3 : (ix4 (0 : Fin 1) (0 : Fin 1) i j 3).val = j.val := rfl
  match a with
  | ⟨0, _⟩ => rfl
  | ⟨1, _⟩ => rfl
  | ⟨2, _⟩ => dsimp only [srcCoord]; omega
  | ⟨3, _⟩ => dsimp only [srcCoord]; omega

/-- The same after the pad that pads nothing. -/
theorem padded_5 (x : FVec Ideal S1x1x11x11 .f32) (i j : Fin 352) :
    val_main_v24 (F := Ideal) x (ix4 0 0 i j) = enlarged 32 (by decide) (by decide) x i j := by
  unfold val_main_v24
  rw [pad_zero_apply]
  exact chain_5 x i j

/-- Image 6 (side 176, factor 2) after its four layout steps, at `(0, 0, i, j)`, is its entry `(i / 2, j / 2)`. -/
theorem chain_6 (x : FVec Ideal S1x1x176x176 .f32) (i j : Fin 352) :
    val_main_v28 (F := Ideal) x (ix4 0 0 i j) = enlarged 2 (by decide) (by decide) x i j := by
  rw [val_main_v28_apply, val_main_v27_apply, val_main_v26_apply, val_main_v25_apply]
  unfold enlarged
  refine congrArg x (funext fun a => Fin.ext ?_)
  have hi := i.isLt
  have hj := j.isLt
  -- the four coordinates of the index (0, 0, i, j), as numbers for the arithmetic below
  have e0 : (ix4 (0 : Fin 1) (0 : Fin 1) i j 0).val = 0 := rfl
  have e1 : (ix4 (0 : Fin 1) (0 : Fin 1) i j 1).val = 0 := rfl
  have e2 : (ix4 (0 : Fin 1) (0 : Fin 1) i j 2).val = i.val := rfl
  have e3 : (ix4 (0 : Fin 1) (0 : Fin 1) i j 3).val = j.val := rfl
  match a with
  | ⟨0, _⟩ => rfl
  | ⟨1, _⟩ => rfl
  | ⟨2, _⟩ => dsimp only [srcCoord]; omega
  | ⟨3, _⟩ => dsimp only [srcCoord]; omega

/-- The same after the pad that pads nothing. -/
theorem padded_6 (x : FVec Ideal S1x1x176x176 .f32) (i j : Fin 352) :
    val_main_v29 (F := Ideal) x (ix4 0 0 i j) = enlarged 2 (by decide) (by decide) x i j := by
  unfold val_main_v29
  rw [pad_zero_apply]
  exact chain_6 x i j

/-- Image 7 (side 88, factor 4) after its four layout steps, at `(0, 0, i, j)`, is its entry `(i / 4, j / 4)`. -/
theorem chain_7 (x : FVec Ideal S1x1x88x88 .f32) (i j : Fin 352) :
    val_main_v33 (F := Ideal) x (ix4 0 0 i j) = enlarged 4 (by decide) (by decide) x i j := by
  rw [val_main_v33_apply, val_main_v32_apply, val_main_v31_apply, val_main_v30_apply]
  unfold enlarged
  refine congrArg x (funext fun a => Fin.ext ?_)
  have hi := i.isLt
  have hj := j.isLt
  -- the four coordinates of the index (0, 0, i, j), as numbers for the arithmetic below
  have e0 : (ix4 (0 : Fin 1) (0 : Fin 1) i j 0).val = 0 := rfl
  have e1 : (ix4 (0 : Fin 1) (0 : Fin 1) i j 1).val = 0 := rfl
  have e2 : (ix4 (0 : Fin 1) (0 : Fin 1) i j 2).val = i.val := rfl
  have e3 : (ix4 (0 : Fin 1) (0 : Fin 1) i j 3).val = j.val := rfl
  match a with
  | ⟨0, _⟩ => rfl
  | ⟨1, _⟩ => rfl
  | ⟨2, _⟩ => dsimp only [srcCoord]; omega
  | ⟨3, _⟩ => dsimp only [srcCoord]; omega

/-- The same after the pad that pads nothing. -/
theorem padded_7 (x : FVec Ideal S1x1x88x88 .f32) (i j : Fin 352) :
    val_main_v34 (F := Ideal) x (ix4 0 0 i j) = enlarged 4 (by decide) (by decide) x i j := by
  unfold val_main_v34
  rw [pad_zero_apply]
  exact chain_7 x i j

/-- Image 8 (side 44, factor 8) after its four layout steps, at `(0, 0, i, j)`, is its entry `(i / 8, j / 8)`. -/
theorem chain_8 (x : FVec Ideal S1x1x44x44 .f32) (i j : Fin 352) :
    val_main_v38 (F := Ideal) x (ix4 0 0 i j) = enlarged 8 (by decide) (by decide) x i j := by
  rw [val_main_v38_apply, val_main_v37_apply, val_main_v36_apply, val_main_v35_apply]
  unfold enlarged
  refine congrArg x (funext fun a => Fin.ext ?_)
  have hi := i.isLt
  have hj := j.isLt
  -- the four coordinates of the index (0, 0, i, j), as numbers for the arithmetic below
  have e0 : (ix4 (0 : Fin 1) (0 : Fin 1) i j 0).val = 0 := rfl
  have e1 : (ix4 (0 : Fin 1) (0 : Fin 1) i j 1).val = 0 := rfl
  have e2 : (ix4 (0 : Fin 1) (0 : Fin 1) i j 2).val = i.val := rfl
  have e3 : (ix4 (0 : Fin 1) (0 : Fin 1) i j 3).val = j.val := rfl
  match a with
  | ⟨0, _⟩ => rfl
  | ⟨1, _⟩ => rfl
  | ⟨2, _⟩ => dsimp only [srcCoord]; omega
  | ⟨3, _⟩ => dsimp only [srcCoord]; omega

/-- The same after the pad that pads nothing. -/
theorem padded_8 (x : FVec Ideal S1x1x44x44 .f32) (i j : Fin 352) :
    val_main_v39 (F := Ideal) x (ix4 0 0 i j) = enlarged 8 (by decide) (by decide) x i j := by
  unfold val_main_v39
  rw [pad_zero_apply]
  exact chain_8 x i j

/-- Image 9 (side 22, factor 16) after its four layout steps, at `(0, 0, i, j)`, is its entry `(i / 16, j / 16)`. -/
theorem chain_9 (x : FVec Ideal S1x1x22x22 .f32) (i j : Fin 352) :
    val_main_v43 (F := Ideal) x (ix4 0 0 i j) = enlarged 16 (by decide) (by decide) x i j := by
  rw [val_main_v43_apply, val_main_v42_apply, val_main_v41_apply, val_main_v40_apply]
  unfold enlarged
  refine congrArg x (funext fun a => Fin.ext ?_)
  have hi := i.isLt
  have hj := j.isLt
  -- the four coordinates of the index (0, 0, i, j), as numbers for the arithmetic below
  have e0 : (ix4 (0 : Fin 1) (0 : Fin 1) i j 0).val = 0 := rfl
  have e1 : (ix4 (0 : Fin 1) (0 : Fin 1) i j 1).val = 0 := rfl
  have e2 : (ix4 (0 : Fin 1) (0 : Fin 1) i j 2).val = i.val := rfl
  have e3 : (ix4 (0 : Fin 1) (0 : Fin 1) i j 3).val = j.val := rfl
  match a with
  | ⟨0, _⟩ => rfl
  | ⟨1, _⟩ => rfl
  | ⟨2, _⟩ => dsimp only [srcCoord]; omega
  | ⟨3, _⟩ => dsimp only [srcCoord]; omega

/-- The same after the pad that pads nothing. -/
theorem padded_9 (x : FVec Ideal S1x1x22x22 .f32) (i j : Fin 352) :
    val_main_v44 (F := Ideal) x (ix4 0 0 i j) = enlarged 16 (by decide) (by decide) x i j := by
  unfold val_main_v44
  rw [pad_zero_apply]
  exact chain_9 x i j

/-- Image 10 (side 11, factor 32) after its four layout steps, at `(0, 0, i, j)`, is its entry `(i / 32, j / 32)`. -/
theorem chain_10 (x : FVec Ideal S1x1x11x11 .f32) (i j : Fin 352) :
    val_main_v48 (F := Ideal) x (ix4 0 0 i j) = enlarged 32 (by decide) (by decide) x i j := by
  rw [val_main_v48_apply, val_main_v47_apply, val_main_v46_apply, val_main_v45_apply]
  unfold enlarged
  refine congrArg x (funext fun a => Fin.ext ?_)
  have hi := i.isLt
  have hj := j.isLt
  -- the four coordinates of the index (0, 0, i, j), as numbers for the arithmetic below
  have e0 : (ix4 (0 : Fin 1) (0 : Fin 1) i j 0).val = 0 := rfl
  have e1 : (ix4 (0 : Fin 1) (0 : Fin 1) i j 1).val = 0 := rfl
  have e2 : (ix4 (0 : Fin 1) (0 : Fin 1) i j 2).val = i.val := rfl
  have e3 : (ix4 (0 : Fin 1) (0 : Fin 1) i j 3).val = j.val := rfl
  match a with
  | ⟨0, _⟩ => rfl
  | ⟨1, _⟩ => rfl
  | ⟨2, _⟩ => dsimp only [srcCoord]; omega
  | ⟨3, _⟩ => dsimp only [srcCoord]; omega

/-- The same after the pad that pads nothing. -/
theorem padded_10 (x : FVec Ideal S1x1x11x11 .f32) (i j : Fin 352) :
    val_main_v49 (F := Ideal) x (ix4 0 0 i j) = enlarged 32 (by decide) (by decide) x i j := by
  unfold val_main_v49
  rw [pad_zero_apply]
  exact chain_10 x i j

/-- Image 11 (side 176, factor 2) after its four layout steps, at `(0, 0, i, j)`, is its entry `(i / 2, j / 2)`. -/
theorem chain_11 (x : FVec Ideal S1x1x176x176 .f32) (i j : Fin 352) :
    val_main_v53 (F := Ideal) x (ix4 0 0 i j) = enlarged 2 (by decide) (by decide) x i j := by
  rw [val_main_v53_apply, val_main_v52_apply, val_main_v51_apply, val_main_v50_apply]
  unfold enlarged
  refine congrArg x (funext fun a => Fin.ext ?_)
  have hi := i.isLt
  have hj := j.isLt
  -- the four coordinates of the index (0, 0, i, j), as numbers for the arithmetic below
  have e0 : (ix4 (0 : Fin 1) (0 : Fin 1) i j 0).val = 0 := rfl
  have e1 : (ix4 (0 : Fin 1) (0 : Fin 1) i j 1).val = 0 := rfl
  have e2 : (ix4 (0 : Fin 1) (0 : Fin 1) i j 2).val = i.val := rfl
  have e3 : (ix4 (0 : Fin 1) (0 : Fin 1) i j 3).val = j.val := rfl
  match a with
  | ⟨0, _⟩ => rfl
  | ⟨1, _⟩ => rfl
  | ⟨2, _⟩ => dsimp only [srcCoord]; omega
  | ⟨3, _⟩ => dsimp only [srcCoord]; omega

/-- The same after the pad that pads nothing. -/
theorem padded_11 (x : FVec Ideal S1x1x176x176 .f32) (i j : Fin 352) :
    val_main_v54 (F := Ideal) x (ix4 0 0 i j) = enlarged 2 (by decide) (by decide) x i j := by
  unfold val_main_v54
  rw [pad_zero_apply]
  exact chain_11 x i j

/-! ## The stack

  The twelve pieces all have shape [1, 1, 352, 352] and are joined along axis 1, so piece `c` spans exactly the
  coordinate `c` of that axis: the result at `(0, c, i, j)` is piece `c` at `(0, 0, i, j)`. -/

section
variable (x0 : FVec Ideal S1x1x352x352 .f32) (x1 : FVec Ideal S1x1x176x176 .f32) (x2 : FVec Ideal S1x1x88x88 .f32)
    (x3 : FVec Ideal S1x1x44x44 .f32) (x4 : FVec Ideal S1x1x22x22 .f32) (x5 : FVec Ideal S1x1x11x11 .f32)
    (x6 : FVec Ideal S1x1x176x176 .f32) (x7 : FVec Ideal S1x1x88x88 .f32) (x8 : FVec Ideal S1x1x44x44 .f32)
    (x9 : FVec Ideal S1x1x22x22 .f32) (x10 : FVec Ideal S1x1x11x11 .f32) (x11 : FVec Ideal S1x1x176x176 .f32)

/-- Channel 0 of the stack is piece 0: every piece has extent 1 on the joined axis, so the pieces before it span the
    coordinates below 0. -/
theorem stack_0 (i j : Fin 352) :
    val_main_v55 (F := Ideal) x0 x1 x2 x3 x4 x5 x6 x7 x8 x9 x10 x11 (ix4 (0 : Fin 1) (⟨0, by decide⟩ : Fin 12) i j)
      = x0 (ix4 0 0 i j) := by
  unfold val_main_v55
  refine concatenate_apply_piece (t := S1x12x352x352) 1 _ _ _ 0 ?hk S1x1x352x352 _ ?hxk rfl 0 ?hpre (ix4 0 0 i j) (fun b hb => ?hi) ?ha
  case hk => exact (by decide : 0 < 12)
  case hxk => rfl
  case hpre => rfl
  case ha => rfl
  case hi =>
    match b with
    | ⟨0, _⟩ => rfl
    | ⟨1, _⟩ => exact absurd rfl hb
    | ⟨2, _⟩ => rfl
    | ⟨3, _⟩ => rfl

/-- Channel 1 of the stack is piece 1: every piece has extent 1 on the joined axis, so the pieces before it span the
    coordinates below 1. -/
theorem stack_1 (i j : Fin 352) :
    val_main_v55 (F := Ideal) x0 x1 x2 x3 x4 x5 x6 x7 x8 x9 x10 x11 (ix4 (0 : Fin 1) (⟨1, by decide⟩ : Fin 12) i j)
      = (val_main_v4 (F := Ideal) x1) (ix4 0 0 i j) := by
  unfold val_main_v55
  refine concatenate_apply_piece (t := S1x12x352x352) 1 _ _ _ 1 ?hk S1x1x352x352 _ ?hxk rfl 1 ?hpre (ix4 0 0 i j) (fun b hb => ?hi) ?ha
  case hk => exact (by decide : 1 < 12)
  case hxk => rfl
  case hpre => rfl
  case ha => rfl
  case hi =>
    match b with
    | ⟨0, _⟩ => rfl
    | ⟨1, _⟩ => exact absurd rfl hb
    | ⟨2, _⟩ => rfl
    | ⟨3, _⟩ => rfl

/-- Channel 2 of the stack is piece 2: every piece has extent 1 on the joined axis, so the pieces before it span the
    coordinates below 2. -/
theorem stack_2 (i j : Fin 352) :
    val_main_v55 (F := Ideal) x0 x1 x2 x3 x4 x5 x6 x7 x8 x9 x10 x11 (ix4 (0 : Fin 1) (⟨2, by decide⟩ : Fin 12) i j)
      = (val_main_v9 (F := Ideal) x2) (ix4 0 0 i j) := by
  unfold val_main_v55
  refine concatenate_apply_piece (t := S1x12x352x352) 1 _ _ _ 2 ?hk S1x1x352x352 _ ?hxk rfl 2 ?hpre (ix4 0 0 i j) (fun b hb => ?hi) ?ha
  case hk => exact (by decide : 2 < 12)
  case hxk => rfl
  case hpre => rfl
  case ha => rfl
  case hi =>
    match b with
    | ⟨0, _⟩ => rfl
    | ⟨1, _⟩ => exact absurd rfl hb
    | ⟨2, _⟩ => rfl
    | ⟨3, _⟩ => rfl

/-- Channel 3 of the stack is piece 3: every piece has extent 1 on the joined axis, so the pieces before it span the
    coordinates below 3. -/
theorem stack_3 (i j : Fin 352) :
    val_main_v55 (F := Ideal) x0 x1 x2 x3 x4 x5 x6 x7 x8 x9 x10 x11 (ix4 (0 : Fin 1) (⟨3, by decide⟩ : Fin 12) i j)
      = (val_main_v14 (F := Ideal) x3) (ix4 0 0 i j) := by
  unfold val_main_v55
  refine concatenate_apply_piece (t := S1x12x352x352) 1 _ _ _ 3 ?hk S1x1x352x352 _ ?hxk rfl 3 ?hpre (ix4 0 0 i j) (fun b hb => ?hi) ?ha
  case hk => exact (by decide : 3 < 12)
  case hxk => rfl
  case hpre => rfl
  case ha => rfl
  case hi =>
    match b with
    | ⟨0, _⟩ => rfl
    | ⟨1, _⟩ => exact absurd rfl hb
    | ⟨2, _⟩ => rfl
    | ⟨3, _⟩ => rfl

/-- Channel 4 of the stack is piece 4: every piece has extent 1 on the joined axis, so the pieces before it span the
    coordinates below 4. -/
theorem stack_4 (i j : Fin 352) :
    val_main_v55 (F := Ideal) x0 x1 x2 x3 x4 x5 x6 x7 x8 x9 x10 x11 (ix4 (0 : Fin 1) (⟨4, by decide⟩ : Fin 12) i j)
      = (val_main_v19 (F := Ideal) x4) (ix4 0 0 i j) := by
  unfold val_main_v55
  refine concatenate_apply_piece (t := S1x12x352x352) 1 _ _ _ 4 ?hk S1x1x352x352 _ ?hxk rfl 4 ?hpre (ix4 0 0 i j) (fun b hb => ?hi) ?ha
  case hk => exact (by decide : 4 < 12)
  case hxk => rfl
  case hpre => rfl
  case ha => rfl
  case hi =>
    match b with
    | ⟨0, _⟩ => rfl
    | ⟨1, _⟩ => exact absurd rfl hb
    | ⟨2, _⟩ => rfl
    | ⟨3, _⟩ => rfl

/-- Channel 5 of the stack is piece 5: every piece has extent 1 on the joined axis, so the pieces before it span the
    coordinates below 5. -/
theorem stack_5 (i j : Fin 352) :
    val_main_v55 (F := Ideal) x0 x1 x2 x3 x4 x5 x6 x7 x8 x9 x10 x11 (ix4 (0 : Fin 1) (⟨5, by decide⟩ : Fin 12) i j)
      = (val_main_v24 (F := Ideal) x5) (ix4 0 0 i j) := by
  unfold val_main_v55
  refine concatenate_apply_piece (t := S1x12x352x352) 1 _ _ _ 5 ?hk S1x1x352x352 _ ?hxk rfl 5 ?hpre (ix4 0 0 i j) (fun b hb => ?hi) ?ha
  case hk => exact (by decide : 5 < 12)
  case hxk => rfl
  case hpre => rfl
  case ha => rfl
  case hi =>
    match b with
    | ⟨0, _⟩ => rfl
    | ⟨1, _⟩ => exact absurd rfl hb
    | ⟨2, _⟩ => rfl
    | ⟨3, _⟩ => rfl

/-- Channel 6 of the stack is piece 6: every piece has extent 1 on the joined axis, so the pieces before it span the
    coordinates below 6. -/
theorem stack_6 (i j : Fin 352) :
    val_main_v55 (F := Ideal) x0 x1 x2 x3 x4 x5 x6 x7 x8 x9 x10 x11 (ix4 (0 : Fin 1) (⟨6, by decide⟩ : Fin 12) i j)
      = (val_main_v29 (F := Ideal) x6) (ix4 0 0 i j) := by
  unfold val_main_v55
  refine concatenate_apply_piece (t := S1x12x352x352) 1 _ _ _ 6 ?hk S1x1x352x352 _ ?hxk rfl 6 ?hpre (ix4 0 0 i j) (fun b hb => ?hi) ?ha
  case hk => exact (by decide : 6 < 12)
  case hxk => rfl
  case hpre => rfl
  case ha => rfl
  case hi =>
    match b with
    | ⟨0, _⟩ => rfl
    | ⟨1, _⟩ => exact absurd rfl hb
    | ⟨2, _⟩ => rfl
    | ⟨3, _⟩ => rfl

/-- Channel 7 of the stack is piece 7: every piece has extent 1 on the joined axis, so the pieces before it span the
    coordinates below 7. -/
theorem stack_7 (i j : Fin 352) :
    val_main_v55 (F := Ideal) x0 x1 x2 x3 x4 x5 x6 x7 x8 x9 x10 x11 (ix4 (0 : Fin 1) (⟨7, by decide⟩ : Fin 12) i j)
      = (val_main_v34 (F := Ideal) x7) (ix4 0 0 i j) := by
  unfold val_main_v55
  refine concatenate_apply_piece (t := S1x12x352x352) 1 _ _ _ 7 ?hk S1x1x352x352 _ ?hxk rfl 7 ?hpre (ix4 0 0 i j) (fun b hb => ?hi) ?ha
  case hk => exact (by decide : 7 < 12)
  case hxk => rfl
  case hpre => rfl
  case ha => rfl
  case hi =>
    match b with
    | ⟨0, _⟩ => rfl
    | ⟨1, _⟩ => exact absurd rfl hb
    | ⟨2, _⟩ => rfl
    | ⟨3, _⟩ => rfl

/-- Channel 8 of the stack is piece 8: every piece has extent 1 on the joined axis, so the pieces before it span the
    coordinates below 8. -/
theorem stack_8 (i j : Fin 352) :
    val_main_v55 (F := Ideal) x0 x1 x2 x3 x4 x5 x6 x7 x8 x9 x10 x11 (ix4 (0 : Fin 1) (⟨8, by decide⟩ : Fin 12) i j)
      = (val_main_v39 (F := Ideal) x8) (ix4 0 0 i j) := by
  unfold val_main_v55
  refine concatenate_apply_piece (t := S1x12x352x352) 1 _ _ _ 8 ?hk S1x1x352x352 _ ?hxk rfl 8 ?hpre (ix4 0 0 i j) (fun b hb => ?hi) ?ha
  case hk => exact (by decide : 8 < 12)
  case hxk => rfl
  case hpre => rfl
  case ha => rfl
  case hi =>
    match b with
    | ⟨0, _⟩ => rfl
    | ⟨1, _⟩ => exact absurd rfl hb
    | ⟨2, _⟩ => rfl
    | ⟨3, _⟩ => rfl

/-- Channel 9 of the stack is piece 9: every piece has extent 1 on the joined axis, so the pieces before it span the
    coordinates below 9. -/
theorem stack_9 (i j : Fin 352) :
    val_main_v55 (F := Ideal) x0 x1 x2 x3 x4 x5 x6 x7 x8 x9 x10 x11 (ix4 (0 : Fin 1) (⟨9, by decide⟩ : Fin 12) i j)
      = (val_main_v44 (F := Ideal) x9) (ix4 0 0 i j) := by
  unfold val_main_v55
  refine concatenate_apply_piece (t := S1x12x352x352) 1 _ _ _ 9 ?hk S1x1x352x352 _ ?hxk rfl 9 ?hpre (ix4 0 0 i j) (fun b hb => ?hi) ?ha
  case hk => exact (by decide : 9 < 12)
  case hxk => rfl
  case hpre => rfl
  case ha => rfl
  case hi =>
    match b with
    | ⟨0, _⟩ => rfl
    | ⟨1, _⟩ => exact absurd rfl hb
    | ⟨2, _⟩ => rfl
    | ⟨3, _⟩ => rfl

/-- Channel 10 of the stack is piece 10: every piece has extent 1 on the joined axis, so the pieces before it span the
    coordinates below 10. -/
theorem stack_10 (i j : Fin 352) :
    val_main_v55 (F := Ideal) x0 x1 x2 x3 x4 x5 x6 x7 x8 x9 x10 x11 (ix4 (0 : Fin 1) (⟨10, by decide⟩ : Fin 12) i j)
      = (val_main_v49 (F := Ideal) x10) (ix4 0 0 i j) := by
  unfold val_main_v55
  refine concatenate_apply_piece (t := S1x12x352x352) 1 _ _ _ 10 ?hk S1x1x352x352 _ ?hxk rfl 10 ?hpre (ix4 0 0 i j) (fun b hb => ?hi) ?ha
  case hk => exact (by decide : 10 < 12)
  case hxk => rfl
  case hpre => rfl
  case ha => rfl
  case hi =>
    match b with
    | ⟨0, _⟩ => rfl
    | ⟨1, _⟩ => exact absurd rfl hb
    | ⟨2, _⟩ => rfl
    | ⟨3, _⟩ => rfl

/-- Channel 11 of the stack is piece 11: every piece has extent 1 on the joined axis, so the pieces before it span the
    coordinates below 11. -/
theorem stack_11 (i j : Fin 352) :
    val_main_v55 (F := Ideal) x0 x1 x2 x3 x4 x5 x6 x7 x8 x9 x10 x11 (ix4 (0 : Fin 1) (⟨11, by decide⟩ : Fin 12) i j)
      = (val_main_v54 (F := Ideal) x11) (ix4 0 0 i j) := by
  unfold val_main_v55
  refine concatenate_apply_piece (t := S1x12x352x352) 1 _ _ _ 11 ?hk S1x1x352x352 _ ?hxk rfl 11 ?hpre (ix4 0 0 i j) (fun b hb => ?hi) ?ha
  case hk => exact (by decide : 11 < 12)
  case hxk => rfl
  case hpre => rfl
  case ha => rfl
  case hi =>
    match b with
    | ⟨0, _⟩ => rfl
    | ⟨1, _⟩ => exact absurd rfl hb
    | ⟨2, _⟩ => rfl
    | ⟨3, _⟩ => rfl

end

/-! ## The whole result -/

/-- The reference program's result is the stack of the enlarged images. -/
theorem ref_eq (x0 : FVec Ideal S1x1x352x352 .f32) (x1 : FVec Ideal S1x1x176x176 .f32) (x2 : FVec Ideal S1x1x88x88 .f32)
    (x3 : FVec Ideal S1x1x44x44 .f32) (x4 : FVec Ideal S1x1x22x22 .f32) (x5 : FVec Ideal S1x1x11x11 .f32)
    (x6 : FVec Ideal S1x1x176x176 .f32) (x7 : FVec Ideal S1x1x88x88 .f32) (x8 : FVec Ideal S1x1x44x44 .f32)
    (x9 : FVec Ideal S1x1x22x22 .f32) (x10 : FVec Ideal S1x1x11x11 .f32) (x11 : FVec Ideal S1x1x176x176 .f32) :
    val_main_v55 (F := Ideal) x0 x1 x2 x3 x4 x5 x6 x7 x8 x9 x10 x11 = G x0 x1 x2 x3 x4 x5 x6 x7 x8 x9 x10 x11 := by
  funext y
  obtain ⟨a, c, i, j, rfl⟩ : ∃ a c i j, y = ix4 a c i j := ⟨y 0, y 1, y 2, y 3, eq_ix4 y⟩
  have ha : a = 0 := Subsingleton.elim _ _
  subst ha
  rw [G_apply]
  match c with
  | ⟨0, _⟩ => exact stack_0 x0 x1 x2 x3 x4 x5 x6 x7 x8 x9 x10 x11 i j
  | ⟨1, _⟩ => exact (stack_1 x0 x1 x2 x3 x4 x5 x6 x7 x8 x9 x10 x11 i j).trans (padded_1 x1 i j)
  | ⟨2, _⟩ => exact (stack_2 x0 x1 x2 x3 x4 x5 x6 x7 x8 x9 x10 x11 i j).trans (padded_2 x2 i j)
  | ⟨3, _⟩ => exact (stack_3 x0 x1 x2 x3 x4 x5 x6 x7 x8 x9 x10 x11 i j).trans (padded_3 x3 i j)
  | ⟨4, _⟩ => exact (stack_4 x0 x1 x2 x3 x4 x5 x6 x7 x8 x9 x10 x11 i j).trans (padded_4 x4 i j)
  | ⟨5, _⟩ => exact (stack_5 x0 x1 x2 x3 x4 x5 x6 x7 x8 x9 x10 x11 i j).trans (padded_5 x5 i j)
  | ⟨6, _⟩ => exact (stack_6 x0 x1 x2 x3 x4 x5 x6 x7 x8 x9 x10 x11 i j).trans (padded_6 x6 i j)
  | ⟨7, _⟩ => exact (stack_7 x0 x1 x2 x3 x4 x5 x6 x7 x8 x9 x10 x11 i j).trans (padded_7 x7 i j)
  | ⟨8, _⟩ => exact (stack_8 x0 x1 x2 x3 x4 x5 x6 x7 x8 x9 x10 x11 i j).trans (padded_8 x8 i j)
  | ⟨9, _⟩ => exact (stack_9 x0 x1 x2 x3 x4 x5 x6 x7 x8 x9 x10 x11 i j).trans (padded_9 x9 i j)
  | ⟨10, _⟩ => exact (stack_10 x0 x1 x2 x3 x4 x5 x6 x7 x8 x9 x10 x11 i j).trans (padded_10 x10 i j)
  | ⟨11, _⟩ => exact (stack_11 x0 x1 x2 x3 x4 x5 x6 x7 x8 x9 x10 x11 i j).trans (padded_11 x11 i j)
  | ⟨k + 12, hk⟩ => exact absurd hk (by omega)

end Cert.RefValue

end
-- ==== Proof.lean ====
/-
  Twelve square images, of sides 352, 176, 88, 44, 22, 11, 176, 88, 44, 22, 11, 176, are stacked into one array of shape
  [1, 12, 352, 352]: the first as it is, each other one enlarged to side 352 by repeating every entry over an n-by-n
  square, n = 352 / side.  So entry (0, c, i, j) of the result is image c at (i / n, j / n).

  The reference repeats entries by two broadcasts and reshapes per image (then pads by nothing) and concatenates.
  The kernel forms, per image X, the product (R · X) · Rᵀ with R the 0/1 matrix having its single 1 of row p in column
  p / n.  On the extended reals 0 · x = 0 for every x and a sum with one nonzero term is that term, so the product's
  entry (i, j) is X (i / n, j / n) exactly, for every input — the precondition is not used.  Both results are the one
  function `Cert.Resize.G` of the twelve argument arrays.
-/
import proofs.«182170_j21698174779469_2_alg».proof.Defs
import proofs.«182170_j21698174779469_2_alg».proof.Proof.Gen.Kernel
import proofs.«182170_j21698174779469_2_alg».proof.Proof.Gen.Kernel.Skeleton
import proofs.«182170_j21698174779469_2_alg».proof.Proof.Gen.Kernel.Launch
import proofs.«182170_j21698174779469_2_alg».proof.Proof.Gen.Kernel.Points
import proofs.«182170_j21698174779469_2_alg».proof.Proof.Gen.Kernel.Frame
import proofs.«182170_j21698174779469_2_alg».proof.Proof.Gen.KernelIdeal
import proofs.«182170_j21698174779469_2_alg».proof.Proof.Gen.KernelIdeal.Skeleton
import proofs.«182170_j21698174779469_2_alg».proof.Proof.Gen.KernelIdeal.Launch
import proofs.«182170_j21698174779469_2_alg».proof.Proof.Gen.KernelIdeal.Points
import proofs.«182170_j21698174779469_2_alg».proof.Proof.Gen.KernelIdeal.Frame
import proofs.«182170_j21698174779469_2_alg».proof.Proof.Gen.ReferenceIdeal
import proofs.«182170_j21698174779469_2_alg».proof.Proof.Gen.Pre_finite_inputs
import proofs.«182170_j21698174779469_2_alg».proof.Proof.Gen.KernelIdeal.Value
import proofs.«182170_j21698174779469_2_alg».proof.Proof.Gen.ReferenceIdeal.Run
import proofs.«182170_j21698174779469_2_alg».proof.Proof.Gen.ReferenceIdeal.Read
import proofs.«182170_j21698174779469_2_alg».proof.Proof.KernelRun
import proofs.«182170_j21698174779469_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the twelve arguments both programs end with the result array at the specification's
    array of the arguments: the kernel by its run read block by block, the reference by its run read operation by
    operation. -/
theorem algebraic : Cert.algebraic_KernelIdeal_ReferenceIdeal := by
  intro m ρ m' ρ' _ hagree
  refine ⟨fun c => Cert.Resize.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v55_eq, Cert.RefValue.ref_eq, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
